-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x128 .f32) (main_arg3 : FVec F S128 .f32) (main_arg4 : FVec F S128x64 .f32) (main_arg5 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S5000x128 : Shape := ⟨2, ![5000, 128]⟩
abbrev S800000x128 : Shape := ⟨2, ![800000, 128]⟩
abbrev S1x128 : Shape := ⟨2, ![1, 128]⟩
abbrev S5000x1 : Shape := ⟨2, ![5000, 1]⟩
abbrev S50000x64 : Shape := ⟨2, ![50000, 64]⟩
abbrev S5000x64 : Shape := ⟨2, ![5000, 64]⟩
abbrev S800000x64 : Shape := ⟨2, ![800000, 64]⟩
abbrev S1x64 : Shape := ⟨2, ![1, 64]⟩

abbrev nBuf : Space → Nat
  | .hbm => 78
  | .vmem => 28
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .f32⟩
  | .hbm, ⟨11, _⟩ => ⟨S800000, .f32⟩
  | .hbm, ⟨12, _⟩ => ⟨S_, .f32⟩
  | .hbm, ⟨13, _⟩ => ⟨S50000, .f32⟩
  | .hbm, ⟨14, _⟩ => ⟨S800000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S50000, .f32⟩
  | .hbm, ⟨20, _⟩ => ⟨S50000, .f32⟩
  | .hbm, ⟨21, _⟩ => ⟨S50000x1, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000, .f32⟩
  | .hbm, ⟨40, _⟩ => ⟨S800000, .f32⟩
  | .hbm, ⟨41, _⟩ => ⟨S800000x1, .f32⟩
  | .hbm, ⟨42, _⟩ => ⟨S50000x128, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x128, .f32⟩
  | .hbm, ⟨52, _⟩ => ⟨S800000x128, .f32⟩
  | .hbm, ⟨53, _⟩ => ⟨S800000x128, .f32⟩
  | .hbm, ⟨54, _⟩ => ⟨S_, .f32⟩
  | .hbm, ⟨55, _⟩ => ⟨S50000x128, .f32⟩
  | .hbm, ⟨56, _⟩ => ⟨S800000x1, .i32⟩
  | .hbm, ⟨57, _⟩ => ⟨S50000x128, .f32⟩
  | .hbm, ⟨58, _⟩ => ⟨S1x128, .f32⟩
  | .hbm, ⟨59, _⟩ => ⟨S50000x128, .f32⟩
  | .hbm, ⟨60, _⟩ => ⟨S50000x64, .f32⟩
  | .hbm, ⟨61, _⟩ => ⟨S_, .i32⟩
  | .hbm, ⟨62, _⟩ => ⟨S800000, .i32⟩
  | .hbm, ⟨63, _⟩ => ⟨S800000, .i1⟩
  | .hbm, ⟨64, _⟩ => ⟨S_, .i32⟩
  | .hbm, ⟨65, _⟩ => ⟨S800000, .i32⟩
  | .hbm, ⟨66, _⟩ => ⟨S800000, .i32⟩
  | .hbm, ⟨67, _⟩ => ⟨S800000, .i32⟩
  | .hbm, ⟨68, _⟩ => ⟨S800000x1, .i32⟩
  | .hbm, ⟨69, _⟩ => ⟨S800000x64, .f32⟩
  | .hbm, ⟨70, _⟩ => ⟨S800000x64, .f32⟩
  | .hbm, ⟨71, _⟩ => ⟨S800000x64, .f32⟩
  | .hbm, ⟨72, _⟩ => ⟨S_, .f32⟩
  | .hbm, ⟨73, _⟩ => ⟨S50000x64, .f32⟩
  | .hbm, ⟨74, _⟩ => ⟨S800000x1, .i32⟩
  | .hbm, ⟨75, _⟩ => ⟨S50000x64, .f32⟩
  | .hbm, ⟨76, _⟩ => ⟨S1x64, .f32⟩
  | .hbm, ⟨77, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x1, .f32⟩
  | .local _ .vmem, ⟨24, _⟩ => ⟨S5000x1, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_c_8 : Ref sig .tc := ⟨.hbm, 61, rfl⟩
abbrev main_v45 : Ref sig .tc := ⟨.hbm, 62, rfl⟩
abbrev main_v46 : Ref sig .tc := ⟨.hbm, 63, rfl⟩
abbrev main_c_9 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_10 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x64_S5000x64_1_0_0_1_n_n_wf : DotDims.WF S5000x128 S128x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S50000x64.size a
  hwx3_1 : ∀ i : grid3.Coords, EltTy.bits .f32 = 32 ∨ (Rect.block (s := S50000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S50000x64.size a
  hwx3_4 : ∀ i : grid3.Coords, EltTy.bits .f32 = 32 ∨ (Rect.block (s := S50000x64) S5000x64.size (cc3_transform_4 i) (hinb3_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v56) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v12) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v57) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v58) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S50000x64 : Shape := ⟨2, ![50000, 64]⟩
abbrev S800000x64 : Shape := ⟨2, ![800000, 64]⟩
abbrev S1x64 : Shape := ⟨2, ![1, 64]⟩

abbrev nBuf : Space → Nat
  | .hbm => 114
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .f32⟩
  | .hbm, ⟨11, _⟩ => ⟨S800000, .f32⟩
  | .hbm, ⟨12, _⟩ => ⟨S_, .f32⟩
  | .hbm, ⟨13, _⟩ => ⟨S50000, .f32⟩
  | .hbm, ⟨14, _⟩ => ⟨S800000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S50000, .f32⟩
  | .hbm, ⟨20, _⟩ => ⟨S50000x128, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000, .f32⟩
  | .hbm, ⟨39, _⟩ => ⟨S800000, .f32⟩
  | .hbm, ⟨40, _⟩ => ⟨S800000x1, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000x128, .f32⟩
  | .hbm, ⟨50, _⟩ => ⟨S800000x128, .f32⟩
  | .hbm, ⟨51, _⟩ => ⟨S800000x128, .f32⟩
  | .hbm, ⟨52, _⟩ => ⟨S_, .f32⟩
  | .hbm, ⟨53, _⟩ => ⟨S50000x128, .f32⟩
  | .hbm, ⟨54, _⟩ => ⟨S800000x1, .i32⟩
  | .hbm, ⟨55, _⟩ => ⟨S50000x128, .f32⟩
  | .hbm, ⟨56, _⟩ => ⟨S50000, .f32⟩
  | .hbm, ⟨57, _⟩ => ⟨S50000x1, .f32⟩
  | .hbm, ⟨58, _⟩ => ⟨S50000x128, .f32⟩
  | .hbm, ⟨59, _⟩ => ⟨S50000x128, .f32⟩
  | .hbm, ⟨60, _⟩ => ⟨S50000x128, .f32⟩
  | .hbm, ⟨61, _⟩ => ⟨S1x128, .f32⟩
  | .hbm, ⟨62, _⟩ => ⟨S50000x128, .f32⟩
  | .hbm, ⟨63, _⟩ => ⟨S50000x128, .f32⟩
  | .hbm, ⟨64, _⟩ => ⟨S_, .f32⟩
  | .hbm, ⟨65, _⟩ => ⟨S50000x128, .f32⟩
  | .hbm, ⟨66, _⟩ => ⟨S50000x128, .f32⟩
  | .hbm, ⟨67, _⟩ => ⟨S50000x64, .f32⟩
  | .hbm, ⟨68, _⟩ => ⟨S_, .i32⟩
  | .hbm, ⟨69, _⟩ => ⟨S800000, .i32⟩
  | .hbm, ⟨70, _⟩ => ⟨S800000, .i1⟩
  | .hbm, ⟨71, _⟩ => ⟨S_, .i32⟩
  | .hbm, ⟨72, _⟩ => ⟨S800000, .i32⟩
  | .hbm, ⟨73, _⟩ => ⟨S800000, .i32⟩
  | .hbm, ⟨74, _⟩ => ⟨S800000, .i32⟩
  | .hbm, ⟨75, _⟩ => ⟨S800000x1, .i32⟩
  | .hbm, ⟨76, _⟩ => ⟨S800000, .f32⟩
  | .hbm, ⟨77, _⟩ => ⟨S_, .i32⟩
  | .hbm, ⟨78, _⟩ => ⟨S800000, .i32⟩
  | .hbm, ⟨79, _⟩ => ⟨S800000, .i1⟩
  | .hbm, ⟨80, _⟩ => ⟨S_, .i32⟩
  | .hbm, ⟨81, _⟩ => ⟨S800000, .i32⟩
  | .hbm, ⟨82, _⟩ => ⟨S800000, .i32⟩
  | .hbm, ⟨83, _⟩ => ⟨S800000, .i32⟩
  | .hbm, ⟨84, _⟩ => ⟨S800000x1, .i32⟩
  | .hbm, ⟨85, _⟩ => ⟨S800000, .f32⟩
  | .hbm, ⟨86, _⟩ => ⟨S800000, .f32⟩
  | .hbm, ⟨87, _⟩ => ⟨S800000x1, .f32⟩
  | .hbm, ⟨88, _⟩ => ⟨S_, .i32⟩
  | .hbm, ⟨89, _⟩ => ⟨S800000, .i32⟩
  | .hbm, ⟨90, _⟩ => ⟨S800000, .i1⟩
  | .hbm, ⟨91, _⟩ => ⟨S_, .i32⟩
  | .hbm, ⟨92, _⟩ => ⟨S800000, .i32⟩
  | .hbm, ⟨93, _⟩ => ⟨S800000, .i32⟩
  | .hbm, ⟨94, _⟩ => ⟨S800000, .i32⟩
  | .hbm, ⟨95, _⟩ => ⟨S800000x1, .i32⟩
  | .hbm, ⟨96, _⟩ => ⟨S800000x64, .f32⟩
  | .hbm, ⟨97, _⟩ => ⟨S800000x64, .f32⟩
  | .hbm, ⟨98, _⟩ => ⟨S800000x64, .f32⟩
  | .hbm, ⟨99, _⟩ => ⟨S_, .f32⟩
  | .hbm, ⟨100, _⟩ => ⟨S50000x64, .f32⟩
  | .hbm, ⟨101, _⟩ => ⟨S800000x1, .i32⟩
  | .hbm, ⟨102, _⟩ => ⟨S50000x64, .f32⟩
  | .hbm, ⟨103, _⟩ => ⟨S50000, .f32⟩
  | .hbm, ⟨104, _⟩ => ⟨S50000x1, .f32⟩
  | .hbm, ⟨105, _⟩ => ⟨S50000x64, .f32⟩
  | .hbm, ⟨106, _⟩ => ⟨S50000x64, .f32⟩
  | .hbm, ⟨107, _⟩ => ⟨S50000x64, .f32⟩
  | .hbm, ⟨108, _⟩ => ⟨S1x64, .f32⟩
  | .hbm, ⟨109, _⟩ => ⟨S50000x64, .f32⟩
  | .hbm, ⟨110, _⟩ => ⟨S50000x64, .f32⟩
  | .hbm, ⟨111, _⟩ => ⟨S_, .f32⟩
  | .hbm, ⟨112, _⟩ => ⟨S50000x64, .f32⟩
  | .hbm, ⟨113, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_5 : Ref sig .tc := ⟨.hbm, 41, rfl⟩
abbrev main_v28 : Ref sig .tc := ⟨.hbm, 42, rfl⟩
abbrev main_v29 : Ref sig .tc := ⟨.hbm, 43, rfl⟩
abbrev main_c_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call0_cst : Ref sig .tc := ⟨.hbm, 64, rfl⟩
abbrev main_call0_v0 : Ref sig .tc := ⟨.hbm, 65, rfl⟩
abbrev main_v48 : Ref sig .tc := ⟨.hbm, 66, rfl⟩
abbrev main_v49 : Ref sig .tc := ⟨.hbm, 67, rfl⟩
abbrev main_c_8 : Ref sig .tc := ⟨.hbm, 68, rfl⟩
abbrev main_v50 : Ref sig .tc := ⟨.hbm, 69, rfl⟩
abbrev main_v51 : Ref sig .tc := ⟨.hbm, 70, rfl⟩
abbrev main_c_9 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_c_10 : Ref sig .tc := ⟨.hbm, 77, rfl⟩
abbrev main_v57 : Ref sig .tc := ⟨.hbm, 78, rfl⟩
abbrev main_v58 : Ref sig .tc := ⟨.hbm, 79, rfl⟩
abbrev main_c_11 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_c_12 : Ref sig .tc := ⟨.hbm, 88, rfl⟩
abbrev main_v66 : Ref sig .tc := ⟨.hbm, 89, rfl⟩
abbrev main_v67 : Ref sig .tc := ⟨.hbm, 90, rfl⟩
abbrev main_c_13 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_cst_14 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_call1_cst : Ref sig .tc := ⟨.hbm, 111, rfl⟩
abbrev main_call1_v0 : Ref sig .tc := ⟨.hbm, 112, rfl⟩
abbrev main_v86 : Ref sig .tc := ⟨.hbm, 113, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.KernelRun.lean ====
/-
  The idealized kernel's run, with its result array named.  Through the four regions and the host stretches
  between them, every buffer the run leaves is what the chain of boundary contents says it holds at the last
  boundary; the frame statement keeps only the six argument arrays of that, and here the result array is kept too:
  it ends at the last boundary's contents read at the result buffer.  What those contents are, as a function of the
  argument arrays, is the business of the modules that follow.
-/
import proofs.«181864_j14035953123780_1_alg».proof.Proof.Gen.KernelIdeal.Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result array ends at the last boundary's contents,
    and the argument arrays end as launched. -/
theorem run_result : θ_run defs (onTc (τ := τ) (main (F := F))) ⟨m, fun _ => 0, ρ⟩ (fun r => ∀ c : Dev nD,
      r.2.mem ((c.tc : Thread nD τ).loc main_v58) = W7 m ρ c (Proc.devRef .tc main_v58)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v58 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.Hand

end
-- ==== Proof.Spec.lean ====
/-
  The graph-convolution network both programs compute, written once as whole-array operations.

  Nodes are rows of `x : [50000, 128]`; `edges : [2, 800000]` lists source ids (row 0) and target ids (row 1).
  With `deg v = 1 + #{edges into v}` and `dinv = deg^(-1/2)`, one layer sends features `h` to
      relu ( Σ_{e : dst e = v} (h·W)[src e] · dinv[src e] · dinv[dst e]  +  (h·W)[v] · dinv[v]²  +  b ),
  and the network is two such layers (128 → 128 → 64).  Every piece below is one host operation or a short
  chain of them applied to whole arrays; gathers and scatter-adds stay opaque.  The per-edge coefficient, the
  self-loop column and the id columns depend on the edge list only.  The bias enters as a [1, d] row, so that a
  reshaped bias and a broadcast bias are both instances.
-/
import proofs.«181864_j14035953123780_1_alg».proof.Proof.Gen.ReferenceIdeal
import Idealize.ShloMosaic.PureOps.Ideal

noncomputable section

namespace Cert.Gcn

open Idealize.ShloMosaic Cert.ReferenceIdeal Cert.ReferenceIdeal.Gen

variable {F : FTy → Type} [FloatOps F]

/-- Row 0 of the edge list: the source node of every edge. -/
def srcIds (e : (⟨S2x800000, .i32⟩ : BufTy).Contents (Elt F)) : (⟨S800000, .i32⟩ : BufTy).Contents (Elt F) :=
  shapeCast _ (extractStridedSlice S1x800000 ![0, 0] e slices_S2x800000_S1x800000_0_0) shapeCasts_S1x800000_S800000

/-- Row 1 of the edge list: the target node of every edge. -/
def dstIds (e : (⟨S2x800000, .i32⟩ : BufTy).Contents (Elt F)) : (⟨S800000, .i32⟩ : BufTy).Contents (Elt F) :=
  shapeCast _ (extractStridedSlice S1x800000 ![1, 0] e slices_S2x800000_S1x800000_1_0) shapeCasts_S1x800000_S800000

/-- A vector of ids as a column of one-component indices. -/
def idCol (v : (⟨S800000, .i32⟩ : BufTy).Contents (Elt F)) : (⟨S800000x1, .i32⟩ : BufTy).Contents (Elt F) :=
  broadcastInDim S800000x1 ![0] bcast_S800000_S800000x1_0 v

/-- Ids with a negative id counted from the end: `v < 0 ? v + 50000 : v`. -/
def wrapIds (v : (⟨S800000, .i32⟩ : BufTy).Contents (Elt F)) : (⟨S800000, .i32⟩ : BufTy).Contents (Elt F) :=
  select (cmpi .slt v (broadcastInDim S800000 ![] bcast_S_S800000 (constantI S_ 32 0#32)))
    (addi v (broadcastInDim S800000 ![] bcast_S_S800000 (constantI S_ 32 50000#32))) v

/-- `deg^(-1/2)` per node, `deg = 1 +` the number of edges into the node (ones scatter-added at the targets). -/
def invSqrtDeg (dst : (⟨S800000, .i32⟩ : BufTy).Contents (Elt F)) : (⟨S50000, .f32⟩ : BufTy).Contents (Elt F) :=
  Host.rsqrt (addf (broadcastInDim S50000 ![] bcast_S_S50000 (constant S_ .f32 0x3F800000#32))
    (Host.scatterAdd scatter_S50000_S800000x1_S800000_n_0_0_1 (broadcastInDim S50000 ![] bcast_S_S50000 (constant S_ .f32 0x00000000#32))
      (idCol dst) (broadcastInDim S800000 ![] bcast_S_S800000 (constant S_ .f32 0x3F800000#32))))

/-- The self-loop weight `dinv²` as a column. -/
def selfCol (dinv : (⟨S50000, .f32⟩ : BufTy).Contents (Elt F)) : (⟨S50000x1, .f32⟩ : BufTy).Contents (Elt F) :=
  broadcastInDim S50000x1 ![0] bcast_S50000_S50000x1_0 (mulf dinv dinv)

/-- The per-edge weight `dinv[src] · dinv[dst]` as a column. -/
def edgeCoef (dinv : (⟨S50000, .f32⟩ : BufTy).Contents (Elt F)) (src dst : (⟨S800000, .i32⟩ : BufTy).Contents (Elt F)) :
    (⟨S800000x1, .f32⟩ : BufTy).Contents (Elt F) :=
  broadcastInDim S800000x1 ![0] bcast_S800000_S800000x1_0
    (mulf (Host.gather gather_S50000_S800000x1_S800000_n_0_n_n_0_1_1 dinv (idCol (wrapIds src)))
      (Host.gather gather_S50000_S800000x1_S800000_n_0_n_n_0_1_1 dinv (idCol (wrapIds dst))))

/-- Width 128: the weighted rows of `sup` at the sources, scatter-added at the targets. -/
def agg128 (sup : (⟨S50000x128, .f32⟩ : BufTy).Contents (Elt F)) (src dst : (⟨S800000, .i32⟩ : BufTy).Contents (Elt F))
    (coef : (⟨S800000x1, .f32⟩ : BufTy).Contents (Elt F)) : (⟨S50000x128, .f32⟩ : BufTy).Contents (Elt F) :=
  Host.scatterAdd scatter_S50000x128_S800000x1_S800000x128_1_0_0_1
    (broadcastInDim S50000x128 ![] bcast_S_S50000x128 (constant S_ .f32 0x00000000#32)) (idCol dst)
    (mulf (Host.gather gather_S50000x128_S800000x1_S800000x128_1_0_n_n_0_1_1128 sup (idCol (wrapIds src)))
      (broadcastInDim S800000x128 ![0, 1] bcast_S800000x1_S800000x128_0_1 coef))

/-- Width 64: the same. -/
def agg64 (sup : (⟨S50000x64, .f32⟩ : BufTy).Contents (Elt F)) (src dst : (⟨S800000, .i32⟩ : BufTy).Contents (Elt F))
    (coef : (⟨S800000x1, .f32⟩ : BufTy).Contents (Elt F)) : (⟨S50000x64, .f32⟩ : BufTy).Contents (Elt F) :=
  Host.scatterAdd scatter_S50000x64_S800000x1_S800000x64_1_0_0_1
    (broadcastInDim S50000x64 ![] bcast_S_S50000x64 (constant S_ .f32 0x00000000#32)) (idCol dst)
    (mulf (Host.gather gather_S50000x64_S800000x1_S800000x64_1_0_n_n_0_1_164 sup (idCol (wrapIds src)))
      (broadcastInDim S800000x64 ![0, 1] bcast_S800000x1_S800000x64_0_1 coef))

/-- Width 128: `relu ((agg + sup · d2) + b)`, `d2` a column and `b` a row, each spread over the array. -/
def fin128 (agg sup : (⟨S50000x128, .f32⟩ : BufTy).Contents (Elt F)) (d2 : (⟨S50000x1, .f32⟩ : BufTy).Contents (Elt F))
    (b : (⟨S1x128, .f32⟩ : BufTy).Contents (Elt F)) : (⟨S50000x128, .f32⟩ : BufTy).Contents (Elt F) :=
  maximumf (addf (addf agg (mulf sup (broadcastInDim S50000x128 ![0, 1] bcast_S50000x1_S50000x128_0_1 d2)))
      (broadcastInDim S50000x128 ![0, 1] bcast_S1x128_S50000x128_0_1 b))
    (broadcastInDim S50000x128 ![] bcast_S_S50000x128 (constant S_ .f32 0x00000000#32))

/-- Width 64: the same. -/
def fin64 (agg sup : (⟨S50000x64, .f32⟩ : BufTy).Contents (Elt F)) (d2 : (⟨S50000x1, .f32⟩ : BufTy).Contents (Elt F))
    (b : (⟨S1x64, .f32⟩ : BufTy).Contents (Elt F)) : (⟨S50000x64, .f32⟩ : BufTy).Contents (Elt F) :=
  maximumf (addf (addf agg (mulf sup (broadcastInDim S50000x64 ![0, 1] bcast_S50000x1_S50000x64_0_1 d2)))
      (broadcastInDim S50000x64 ![0, 1] bcast_S1x64_S50000x64_0_1 b))
    (broadcastInDim S50000x64 ![] bcast_S_S50000x64 (constant S_ .f32 0x00000000#32))

/-- `x · W`, 128 → 128, as the host's whole matrix product. -/
def mm128 (x : (⟨S50000x128, .f32⟩ : BufTy).Contents (Elt F)) (w : (⟨S128x128, .f32⟩ : BufTy).Contents (Elt F)) :
    (⟨S50000x128, .f32⟩ : BufTy).Contents (Elt F) :=
  Host.dotGeneral dot_S50000x128_S128x128_S50000x128_1_0_0_1_n_n none x w

/-- `h · W`, 128 → 64. -/
def mm64 (x : (⟨S50000x128, .f32⟩ : BufTy).Contents (Elt F)) (w : (⟨S128x64, .f32⟩ : BufTy).Contents (Elt F)) :
    (⟨S50000x64, .f32⟩ : BufTy).Contents (Elt F) :=
  Host.dotGeneral dot_S50000x128_S128x64_S50000x64_1_0_0_1_n_n none x w

/-- The first layer's output. -/
def hidden (x : (⟨S50000x128, .f32⟩ : BufTy).Contents (Elt F)) (e : (⟨S2x800000, .i32⟩ : BufTy).Contents (Elt F))
    (w1 : (⟨S128x128, .f32⟩ : BufTy).Contents (Elt F)) (b1 : (⟨S1x128, .f32⟩ : BufTy).Contents (Elt F)) :
    (⟨S50000x128, .f32⟩ : BufTy).Contents (Elt F) :=
  fin128 (agg128 (mm128 x w1) (srcIds e) (dstIds e) (edgeCoef (invSqrtDeg (dstIds e)) (srcIds e) (dstIds e)))
    (mm128 x w1) (selfCol (invSqrtDeg (dstIds e))) b1

/-- The network's output. -/
def out (x : (⟨S50000x128, .f32⟩ : BufTy).Contents (Elt F)) (e : (⟨S2x800000, .i32⟩ : BufTy).Contents (Elt F))
    (w1 : (⟨S128x128, .f32⟩ : BufTy).Contents (Elt F)) (b1 : (⟨S1x128, .f32⟩ : BufTy).Contents (Elt F))
    (w2 : (⟨S128x64, .f32⟩ : BufTy).Contents (Elt F)) (b2 : (⟨S1x64, .f32⟩ : BufTy).Contents (Elt F)) :
    (⟨S50000x64, .f32⟩ : BufTy).Contents (Elt F) :=
  fin64 (agg64 (mm64 (hidden x e w1 b1) w2) (srcIds e) (dstIds e) (edgeCoef (invSqrtDeg (dstIds e)) (srcIds e) (dstIds e)))
    (mm64 (hidden x e w1 b1) w2) (selfCol (invSqrtDeg (dstIds e))) b2

end Cert.Gcn

end
-- ==== Proof.Boundaries.lean ====
/-
  What the buffers hold at the boundaries between the kernel program's host stretches and its four regions.

  The first stretch computes, from the edge list alone, the source and target ids, `dinv = deg^(-1/2)`, the self-loop
  column `dinv²` and the per-edge coefficient column; no later stretch writes them and no region has them as an
  output, so they reach every later boundary unchanged (a region that reads one through an input window leaves it as it
  found it).  The same holds of the argument arrays.  The second and third stretch each gather the rows of the layer's
  product at the sources, weigh them, scatter-add them at the targets, and reshape the layer's bias into a row.
-/
import proofs.«181864_j14035953123780_1_alg».proof.Proof.Gen.KernelIdeal.Frame
import proofs.«181864_j14035953123780_1_alg».proof.Proof.Spec
import Idealize.ShloMosaic.Lib.StableHlo.Run

set_option maxRecDepth 16384

noncomputable section

namespace Cert.KernelIdeal.Hand

open Idealize.ShloMosaic Idealize.ShloMosaic.TcCoe Idealize.SL.Sem Idealize.ShloMosaic.StableHlo
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

/-! ## After the first stretch -/

/-- The node features, untouched. -/
theorem W1_arg0 (c : Dev nD) : W1 m ρ c (Proc.devRef .tc main_arg0) = m ((c : Thread nD τ).loc main_arg0) := by
  dsimp only [W1, hostOps0]; after_results_simp <;> rfl

/-- The first layer's weights, untouched. -/
theorem W1_arg2 (c : Dev nD) : W1 m ρ c (Proc.devRef .tc main_arg2) = m ((c : Thread nD τ).loc main_arg2) := by
  dsimp only [W1, hostOps0]; after_results_simp <;> rfl

/-- The first layer's bias, untouched. -/
theorem W1_arg3 (c : Dev nD) : W1 m ρ c (Proc.devRef .tc main_arg3) = m ((c : Thread nD τ).loc main_arg3) := by
  dsimp only [W1, hostOps0]; after_results_simp <;> rfl

/-- The second layer's weights, untouched. -/
theorem W1_arg4 (c : Dev nD) : W1 m ρ c (Proc.devRef .tc main_arg4) = m ((c : Thread nD τ).loc main_arg4) := by
  dsimp only [W1, hostOps0]; after_results_simp <;> rfl

/-- The second layer's bias, untouched. -/
theorem W1_arg5 (c : Dev nD) : W1 m ρ c (Proc.devRef .tc main_arg5) = m ((c : Thread nD τ).loc main_arg5) := by
  dsimp only [W1, hostOps0]; after_results_simp <;> rfl

/-- The source ids: row 0 of the edge list. -/
theorem W1_src (c : Dev nD) : W1 m ρ c (Proc.devRef .tc main_v1) = Cert.Gcn.srcIds (m ((c : Thread nD τ).loc main_arg1)) := by
  dsimp only [W1, hostOps0]; after_results_simp <;> rfl

/-- The target ids: row 1 of the edge list. -/
theorem W1_dst (c : Dev nD) : W1 m ρ c (Proc.devRef .tc main_v3) = Cert.Gcn.dstIds (m ((c : Thread nD τ).loc main_arg1)) := by
  dsimp only [W1, hostOps0]; after_results_simp <;> rfl

/-- The self-loop column `dinv²`. -/
theorem W1_self (c : Dev nD) : W1 m ρ c (Proc.devRef .tc main_v12) = Cert.Gcn.selfCol (Cert.Gcn.invSqrtDeg (Cert.Gcn.dstIds (m ((c : Thread nD τ).loc main_arg1)))) := by
  dsimp only [W1, hostOps0]; after_results_simp <;> rfl

/-- The per-edge coefficient column `dinv[src] · dinv[dst]`. -/
theorem W1_coef (c : Dev nD) : W1 m ρ c (Proc.devRef .tc main_v28) = Cert.Gcn.edgeCoef (Cert.Gcn.invSqrtDeg (Cert.Gcn.dstIds (m ((c : Thread nD τ).loc main_arg1)))) (Cert.Gcn.srcIds (m ((c : Thread nD τ).loc main_arg1))) (Cert.Gcn.dstIds (m ((c : Thread nD τ).loc main_arg1))) := by
  dsimp only [W1, hostOps0]; after_results_simp <;> rfl

/-! ## Carried to the later boundaries -/

/-- The first bias where the second stretch reads it. -/
theorem W2_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = m ((c : Thread nD τ).loc main_arg3) := W1_arg3 m ρ c

/-- The second weights where the third region reads them. -/
theorem W4_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := by dsimp only [W3, hostOps1]; after_results_simp <;> rfl
    _ = W1 m ρ c (Proc.devRef .tc main_arg4) := W2_of_ne m ρ c main_arg4 (by decide)
    _ = m ((c : Thread nD τ).loc main_arg4) := W1_arg4 m ρ c

/-- The second bias where the third stretch reads it. -/
theorem W5_arg5 (c : Dev nD) : W5 m ρ c (Proc.devRef .tc main_arg5) = m ((c : Thread nD τ).loc main_arg5) :=
  calc W5 m ρ c (Proc.devRef .tc main_arg5)
    _ = W4 m ρ c (Proc.devRef .tc main_arg5) := W5_of_ne m ρ c main_arg5 (by decide)
    _ = W3 m ρ c (Proc.devRef .tc main_arg5) := W4_of_ne m ρ c main_arg5 (by decide)
    _ = W2 m ρ c (Proc.devRef .tc main_arg5) := by dsimp only [W3, hostOps1]; after_results_simp <;> rfl
    _ = W1 m ρ c (Proc.devRef .tc main_arg5) := W2_of_ne m ρ c main_arg5 (by decide)
    _ = m ((c : Thread nD τ).loc main_arg5) := W1_arg5 m ρ c

/-- Where the second stretch reads it. -/
theorem W2_src (c : Dev nD) : W2 m ρ c (Proc.devRef .tc main_v1) = Cert.Gcn.srcIds (m ((c : Thread nD τ).loc main_arg1)) :=
  calc W2 m ρ c (Proc.devRef .tc main_v1)
    _ = W1 m ρ c (Proc.devRef .tc main_v1) := W2_of_ne m ρ c main_v1 (by decide)
    _ = Cert.Gcn.srcIds (m ((c : Thread nD τ).loc main_arg1)) := W1_src m ρ c

/-- Where the third stretch reads it. -/
theorem W5_src (c : Dev nD) : W5 m ρ c (Proc.devRef .tc main_v1) = Cert.Gcn.srcIds (m ((c : Thread nD τ).loc main_arg1)) :=
  calc W5 m ρ c (Proc.devRef .tc main_v1)
    _ = W4 m ρ c (Proc.devRef .tc main_v1) := W5_of_ne m ρ c main_v1 (by decide)
    _ = W3 m ρ c (Proc.devRef .tc main_v1) := W4_of_ne m ρ c main_v1 (by decide)
    _ = W2 m ρ c (Proc.devRef .tc main_v1) := by dsimp only [W3, hostOps1]; after_results_simp <;> rfl
    _ = W1 m ρ c (Proc.devRef .tc main_v1) := W2_of_ne m ρ c main_v1 (by decide)
    _ = Cert.Gcn.srcIds (m ((c : Thread nD τ).loc main_arg1)) := W1_src m ρ c

/-- Where the second stretch reads it. -/
theorem W2_dst (c : Dev nD) : W2 m ρ c (Proc.devRef .tc main_v3) = Cert.Gcn.dstIds (m ((c : Thread nD τ).loc main_arg1)) :=
  calc W2 m ρ c (Proc.devRef .tc main_v3)
    _ = W1 m ρ c (Proc.devRef .tc main_v3) := W2_of_ne m ρ c main_v3 (by decide)
    _ = Cert.Gcn.dstIds (m ((c : Thread nD τ).loc main_arg1)) := W1_dst m ρ c

/-- Where the third stretch reads it. -/
theorem W5_dst (c : Dev nD) : W5 m ρ c (Proc.devRef .tc main_v3) = Cert.Gcn.dstIds (m ((c : Thread nD τ).loc main_arg1)) :=
  calc W5 m ρ c (Proc.devRef .tc main_v3)
    _ = W4 m ρ c (Proc.devRef .tc main_v3) := W5_of_ne m ρ c main_v3 (by decide)
    _ = W3 m ρ c (Proc.devRef .tc main_v3) := W4_of_ne m ρ c main_v3 (by decide)
    _ = W2 m ρ c (Proc.devRef .tc main_v3) := by dsimp only [W3, hostOps1]; after_results_simp <;> rfl
    _ = W1 m ρ c (Proc.devRef .tc main_v3) := W2_of_ne m ρ c main_v3 (by decide)
    _ = Cert.Gcn.dstIds (m ((c : Thread nD τ).loc main_arg1)) := W1_dst m ρ c

/-- Where the second stretch reads it. -/
theorem W2_coef (c : Dev nD) : W2 m ρ c (Proc.devRef .tc main_v28) = Cert.Gcn.edgeCoef (Cert.Gcn.invSqrtDeg (Cert.Gcn.dstIds (m ((c : Thread nD τ).loc main_arg1)))) (Cert.Gcn.srcIds (m ((c : Thread nD τ).loc main_arg1))) (Cert.Gcn.dstIds (m ((c : Thread nD τ).loc main_arg1))) :=
  calc W2 m ρ c (Proc.devRef .tc main_v28)
    _ = W1 m ρ c (Proc.devRef .tc main_v28) := W2_of_ne m ρ c main_v28 (by decide)
    _ = Cert.Gcn.edgeCoef (Cert.Gcn.invSqrtDeg (Cert.Gcn.dstIds (m ((c : Thread nD τ).loc main_arg1)))) (Cert.Gcn.srcIds (m ((c : Thread nD τ).loc main_arg1))) (Cert.Gcn.dstIds (m ((c : Thread nD τ).loc main_arg1))) := W1_coef m ρ c

/-- Where the third stretch reads it. -/
theorem W5_coef (c : Dev nD) : W5 m ρ c (Proc.devRef .tc main_v28) = Cert.Gcn.edgeCoef (Cert.Gcn.invSqrtDeg (Cert.Gcn.dstIds (m ((c : Thread nD τ).loc main_arg1)))) (Cert.Gcn.srcIds (m ((c : Thread nD τ).loc main_arg1))) (Cert.Gcn.dstIds (m ((c : Thread nD τ).loc main_arg1))) :=
  calc W5 m ρ c (Proc.devRef .tc main_v28)
    _ = W4 m ρ c (Proc.devRef .tc main_v28) := W5_of_ne m ρ c main_v28 (by decide)
    _ = W3 m ρ c (Proc.devRef .tc main_v28) := W4_of_ne m ρ c main_v28 (by decide)
    _ = W2 m ρ c (Proc.devRef .tc main_v28) := by dsimp only [W3, hostOps1]; after_results_simp <;> rfl
    _ = W1 m ρ c (Proc.devRef .tc main_v28) := W2_of_ne m ρ c main_v28 (by decide)
    _ = Cert.Gcn.edgeCoef (Cert.Gcn.invSqrtDeg (Cert.Gcn.dstIds (m ((c : Thread nD τ).loc main_arg1)))) (Cert.Gcn.srcIds (m ((c : Thread nD τ).loc main_arg1))) (Cert.Gcn.dstIds (m ((c : Thread nD τ).loc main_arg1))) := W1_coef m ρ c

/-- The self-loop column where the second region reads it. -/
theorem W3_self (c : Dev nD) : W3 m ρ c (Proc.devRef .tc main_v12) = Cert.Gcn.selfCol (Cert.Gcn.invSqrtDeg (Cert.Gcn.dstIds (m ((c : Thread nD τ).loc main_arg1)))) :=
  calc W3 m ρ c (Proc.devRef .tc main_v12)
    _ = W2 m ρ c (Proc.devRef .tc main_v12) := by dsimp only [W3, hostOps1]; after_results_simp <;> rfl
    _ = W1 m ρ c (Proc.devRef .tc main_v12) := W2_of_ne m ρ c main_v12 (by decide)
    _ = Cert.Gcn.selfCol (Cert.Gcn.invSqrtDeg (Cert.Gcn.dstIds (m ((c : Thread nD τ).loc main_arg1)))) := W1_self m ρ c

/-- The self-loop column where the fourth region reads it: the second region had it as an input and left it as it was. -/
theorem W6_self (c : Dev nD) : W6 m ρ c (Proc.devRef .tc main_v12) = Cert.Gcn.selfCol (Cert.Gcn.invSqrtDeg (Cert.Gcn.dstIds (m ((c : Thread nD τ).loc main_arg1)))) :=
  calc W6 m ρ c (Proc.devRef .tc main_v12)
    _ = W5 m ρ c (Proc.devRef .tc main_v12) := by dsimp only [W6, hostOps3]; after_results_simp <;> rfl
    _ = W4 m ρ c (Proc.devRef .tc main_v12) := W5_of_ne m ρ c main_v12 (by decide)
    _ = W3 m ρ c (Proc.devRef .tc main_v12) := (W4_arr m ρ c 2).trans (((dat1 (V3 m ρ) c).arrAt_in 2 rfl _).trans (A_eq1 (V3 m ρ) c 2))
    _ = W2 m ρ c (Proc.devRef .tc main_v12) := by dsimp only [W3, hostOps1]; after_results_simp <;> rfl
    _ = W1 m ρ c (Proc.devRef .tc main_v12) := W2_of_ne m ρ c main_v12 (by decide)
    _ = Cert.Gcn.selfCol (Cert.Gcn.invSqrtDeg (Cert.Gcn.dstIds (m ((c : Thread nD τ).loc main_arg1)))) := W1_self m ρ c

/-! ## The second and third stretch -/

/-- The first layer's product is not written by the second stretch. -/
theorem W3_sup (c : Dev nD) : W3 m ρ c (Proc.devRef .tc main_v29) = W2 m ρ c (Proc.devRef .tc main_v29) := by
  dsimp only [W3, hostOps1]; after_results_simp <;> rfl

/-- The first layer's aggregate: the product's rows at the sources, weighted, scatter-added at the targets. -/
theorem W3_agg (c : Dev nD) : W3 m ρ c (Proc.devRef .tc main_v41)
    = Cert.Gcn.agg128 (W2 m ρ c (Proc.devRef .tc main_v29)) (W2 m ρ c (Proc.devRef .tc main_v1)) (W2 m ρ c (Proc.devRef .tc main_v3)) (W2 m ρ c (Proc.devRef .tc main_v28)) := by
  dsimp only [W3, hostOps1]; after_results_simp <;> rfl

/-- The first bias as a row. -/
theorem W3_bias (c : Dev nD) : W3 m ρ c (Proc.devRef .tc main_v42) = shapeCast S1x128 (W2 m ρ c (Proc.devRef .tc main_arg3)) shapeCasts_S128_S1x128 := by
  dsimp only [W3, hostOps1]; after_results_simp <;> rfl

/-- The second layer's product is not written by the third stretch. -/
theorem W6_sup (c : Dev nD) : W6 m ρ c (Proc.devRef .tc main_v44) = W5 m ρ c (Proc.devRef .tc main_v44) := by
  dsimp only [W6, hostOps3]; after_results_simp <;> rfl

/-- The second layer's aggregate. -/
theorem W6_agg (c : Dev nD) : W6 m ρ c (Proc.devRef .tc main_v56)
    = Cert.Gcn.agg64 (W5 m ρ c (Proc.devRef .tc main_v44)) (W5 m ρ c (Proc.devRef .tc main_v1)) (W5 m ρ c (Proc.devRef .tc main_v3)) (W5 m ρ c (Proc.devRef .tc main_v28)) := by
  dsimp only [W6, hostOps3]; after_results_simp <;> rfl

/-- The second bias as a row. -/
theorem W6_bias (c : Dev nD) : W6 m ρ c (Proc.devRef .tc main_v57) = shapeCast S1x64 (W5 m ρ c (Proc.devRef .tc main_arg5)) shapeCasts_S64_S1x64 := by
  dsimp only [W6, hostOps3]; after_results_simp <;> rfl

end Cert.KernelIdeal.Hand

end
-- ==== Proof.MatmulBlocks.lean ====
/-
  A matrix product computed 5000 rows at a time is the whole matrix product.

  Over the extended reals a change of float format is the identity and a product accumulated into a zero block is
  the plain sum, so entry (p, q) of a block's product is  Σ_k X[p, k] · W[k, q]  with X the block of 5000 rows
  of the left factor, and entry (r, q) of the host's whole product is  Σ_k A[r, k] · W[k, q].  Block t of the left
  factor is rows 5000·t … 5000·t + 4999 of A and every point reads the whole right factor, so what point t writes back is
  block t of the whole product; the ten blocks tile the 50000 rows (row r lies in block r / 5000), so the result
  array ends holding the whole product.  Done for the first layer's product (128 → 128) and the second's (128 → 64).
-/
import proofs.«181864_j14035953123780_1_alg».proof.Proof.Gen.KernelIdeal.Frame
import proofs.«181864_j14035953123780_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

theorem zeroOff : (![0, 0] : Fin 2 → Nat) = fun _ => 0 := funext fun a => by fin_cases a <;> rfl

/-! ## The operand indices of the four products' dimension records -/

theorem blk128_lhs_row (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem blk128_lhs_mid (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
theorem blk128_rhs_mid (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
theorem blk128_rhs_col (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl
/-- The contraction's sum over its one axis, re-indexed by that axis' coordinate: the left factor is read in row `r`, the right factor in column `q`. -/
theorem blk128_sum (a : S5000x128.Idx → EReal) (b : S128x128.Idx → EReal) (r : Fin 5000) (q : Fin 128) :
    (∑ k : dot_S5000x128_S128x128_S5000x128_1_0_0_1_n_n.contr.Idx, a (dot_S5000x128_S128x128_S5000x128_1_0_0_1_n_n.lhsIdx (ix2 r q) k) * b (dot_S5000x128_S128x128_S5000x128_1_0_0_1_n_n.rhsIdx (ix2 r q) k)) = ∑ k : Fin 128, a (ix2 r k) * b (ix2 k q) := by
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r q) ((contrEquiv1 dot_S5000x128_S128x128_S5000x128_1_0_0_1_n_n 128 rfl rfl).symm k) = ix2 r k := funext fun a => Fin.ext (by
    match a with
    | ⟨0, _⟩ => exact blk128_lhs_row _ _
    | ⟨1, _⟩ => exact (blk128_lhs_mid _ _).trans hk)
  have er : dot_S5000x128_S128x128_S5000x128_1_0_0_1_n_n.rhsIdx (ix2 r q) ((contrEquiv1 dot_S5000x128_S128x128_S5000x128_1_0_0_1_n_n 128 rfl rfl).symm k) = ix2 k q := funext fun a => Fin.ext (by
    match a with
    | ⟨0, _⟩ => exact (blk128_rhs_mid _ _).trans hk
    | ⟨1, _⟩ => exact blk128_rhs_col _ _)
  rw [el, er]

theorem all128_lhs_row (i : Cert.ReferenceIdeal.S50000x128.Idx) (q : Cert.ReferenceIdeal.dot_S50000x128_S128x128_S50000x128_1_0_0_1_n_n.contr.Idx) : (Cert.ReferenceIdeal.dot_S50000x128_S128x128_S50000x128_1_0_0_1_n_n.lhsIdx i q 0).val = (i 0).val := by
  unfold DotDims.lhsIdx
  rw [dif_neg (show ¬(0 : Fin Cert.ReferenceIdeal.S50000x128.rank) ∈ Cert.ReferenceIdeal.dot_S50000x128_S128x128_S50000x128_1_0_0_1_n_n.lhsBatch by decide), dif_pos (show (0 : Fin Cert.ReferenceIdeal.S50000x128.rank) ∈ Cert.ReferenceIdeal.dot_S50000x128_S128x128_S50000x128_1_0_0_1_n_n.lhsNonContracting by decide)]
  rfl
theorem all128_lhs_mid (i : Cert.ReferenceIdeal.S50000x128.Idx) (q : Cert.ReferenceIdeal.dot_S50000x128_S128x128_S50000x128_1_0_0_1_n_n.contr.Idx) : (Cert.ReferenceIdeal.dot_S50000x128_S128x128_S50000x128_1_0_0_1_n_n.lhsIdx i q 1).val = (q ⟨0, by decide⟩).val :=
  Cert.ReferenceIdeal.dot_S50000x128_S128x128_S50000x128_1_0_0_1_n_n.lhsIdx_val_of_single rfl i q
theorem all128_rhs_mid (i : Cert.ReferenceIdeal.S50000x128.Idx) (q : Cert.ReferenceIdeal.dot_S50000x128_S128x128_S50000x128_1_0_0_1_n_n.contr.Idx) : (Cert.ReferenceIdeal.dot_S50000x128_S128x128_S50000x128_1_0_0_1_n_n.rhsIdx i q 0).val = (q ⟨0, by decide⟩).val :=
  Cert.ReferenceIdeal.dot_S50000x128_S128x128_S50000x128_1_0_0_1_n_n.rhsIdx_val_of_single rfl i q
theorem all128_rhs_col (i : Cert.ReferenceIdeal.S50000x128.Idx) (q : Cert.ReferenceIdeal.dot_S50000x128_S128x128_S50000x128_1_0_0_1_n_n.contr.Idx) : (Cert.ReferenceIdeal.dot_S50000x128_S128x128_S50000x128_1_0_0_1_n_n.rhsIdx i q 1).val = (i 1).val := by
  unfold DotDims.rhsIdx
  rw [dif_neg (show ¬(1 : Fin Cert.ReferenceIdeal.S128x128.rank) ∈ Cert.ReferenceIdeal.dot_S50000x128_S128x128_S50000x128_1_0_0_1_n_n.rhsBatch by decide), dif_pos (show (1 : Fin Cert.ReferenceIdeal.S128x128.rank) ∈ Cert.ReferenceIdeal.dot_S50000x128_S128x128_S50000x128_1_0_0_1_n_n.rhsNonContracting by decide)]
  rfl
/-- The contraction's sum over its one axis, re-indexed by that axis' coordinate: the left factor is read in row `r`, the right factor in column `q`. -/
theorem all128_sum (a : Cert.ReferenceIdeal.S50000x128.Idx → EReal) (b : Cert.ReferenceIdeal.S128x128.Idx → EReal) (r : Fin 50000) (q : Fin 128) :
    (∑ k : Cert.ReferenceIdeal.dot_S50000x128_S128x128_S50000x128_1_0_0_1_n_n.contr.Idx, a (Cert.ReferenceIdeal.dot_S50000x128_S128x128_S50000x128_1_0_0_1_n_n.lhsIdx (ix2 r q) k) * b (Cert.ReferenceIdeal.dot_S50000x128_S128x128_S50000x128_1_0_0_1_n_n.rhsIdx (ix2 r q) k)) = ∑ k : Fin 128, a (ix2 r k) * b (ix2 k q) := by
  rw [← Equiv.sum_comp (contrEquiv1 Cert.ReferenceIdeal.dot_S50000x128_S128x128_S50000x128_1_0_0_1_n_n 128 rfl rfl).symm]
  refine Finset.sum_congr rfl fun k _ => ?_
  have hk := contrEquiv1_symm_val Cert.ReferenceIdeal.dot_S50000x128_S128x128_S50000x128_1_0_0_1_n_n 128 rfl rfl k
  have el : Cert.ReferenceIdeal.dot_S50000x128_S128x128_S50000x128_1_0_0_1_n_n.lhsIdx (ix2 r q) ((contrEquiv1 Cert.ReferenceIdeal.dot_S50000x128_S128x128_S50000x128_1_0_0_1_n_n 128 rfl rfl).symm k) = ix2 r k := funext fun a => Fin.ext (by
    match a with
    | ⟨0, _⟩ => exact all128_lhs_row _ _
    | ⟨1, _⟩ => exact (all128_lhs_mid _ _).trans hk)
  have er : Cert.ReferenceIdeal.dot_S50000x128_S128x128_S50000x128_1_0_0_1_n_n.rhsIdx (ix2 r q) ((contrEquiv1 Cert.ReferenceIdeal.dot_S50000x128_S128x128_S50000x128_1_0_0_1_n_n 128 rfl rfl).symm k) = ix2 k q := funext fun a => Fin.ext (by
    match a with
    | ⟨0, _⟩ => exact (all128_rhs_mid _ _).trans hk
    | ⟨1, _⟩ => exact all128_rhs_col _ _)
  rw [el, er]

theorem blk64_lhs_row (i : S5000x64.Idx) (q : dot_S5000x128_S128x64_S5000x64_1_0_0_1_n_n.contr.Idx) : (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem blk64_lhs_mid (i : S5000x64.Idx) (q : dot_S5000x128_S128x64_S5000x64_1_0_0_1_n_n.contr.Idx) : (dot_S5000x128_S128x64_S5000x64_1_0_0_1_n_n.lhsIdx i q 1).val = (q ⟨0, by decide⟩).val :=
  dot_S5000x128_S128x64_S5000x64_1_0_0_1_n_n.lhsIdx_val_of_single rfl i q
theorem blk64_rhs_mid (i : S5000x64.Idx) (q : dot_S5000x128_S128x64_S5000x64_1_0_0_1_n_n.contr.Idx) : (dot_S5000x128_S128x64_S5000x64_1_0_0_1_n_n.rhsIdx i q 0).val = (q ⟨0, by decide⟩).val :=
  dot_S5000x128_S128x64_S5000x64_1_0_0_1_n_n.rhsIdx_val_of_single rfl i q
theorem blk64_rhs_col (i : S5000x64.Idx) (q : dot_S5000x128_S128x64_S5000x64_1_0_0_1_n_n.contr.Idx) : (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl
/-- The contraction's sum over its one axis, re-indexed by that axis' coordinate: the left factor is read in row `r`, the right factor in column `q`. -/
theorem blk64_sum (a : S5000x128.Idx → EReal) (b : S128x64.Idx → EReal) (r : Fin 5000) (q : Fin 64) :
    (∑ k : dot_S5000x128_S128x64_S5000x64_1_0_0_1_n_n.contr.Idx, a (dot_S5000x128_S128x64_S5000x64_1_0_0_1_n_n.lhsIdx (ix2 r q) k) * b (dot_S5000x128_S128x64_S5000x64_1_0_0_1_n_n.rhsIdx (ix2 r q) k)) = ∑ k : Fin 128, a (ix2 r k) * b (ix2 k q) := by
  rw [← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 r q) ((contrEquiv1 dot_S5000x128_S128x64_S5000x64_1_0_0_1_n_n 128 rfl rfl).symm k) = ix2 r k := funext fun a => Fin.ext (by
    match a with
    | ⟨0, _⟩ => exact blk64_lhs_row _ _
    | ⟨1, _⟩ => exact (blk64_lhs_mid _ _).trans hk)
  have er : dot_S5000x128_S128x64_S5000x64_1_0_0_1_n_n.rhsIdx (ix2 r q) ((contrEquiv1 dot_S5000x128_S128x64_S5000x64_1_0_0_1_n_n 128 rfl rfl).symm k) = ix2 k q := funext fun a => Fin.ext (by
    match a with
    | ⟨0, _⟩ => exact (blk64_rhs_mid _ _).trans hk
    | ⟨1, _⟩ => exact blk64_rhs_col _ _)
  rw [el, er]

theorem all64_lhs_row (i : Cert.ReferenceIdeal.S50000x64.Idx) (q : Cert.ReferenceIdeal.dot_S50000x128_S128x64_S50000x64_1_0_0_1_n_n.contr.Idx) : (Cert.ReferenceIdeal.dot_S50000x128_S128x64_S50000x64_1_0_0_1_n_n.lhsIdx i q 0).val = (i 0).val := by
  unfold DotDims.lhsIdx
  rw [dif_neg (show ¬(0 : Fin Cert.ReferenceIdeal.S50000x128.rank) ∈ Cert.ReferenceIdeal.dot_S50000x128_S128x64_S50000x64_1_0_0_1_n_n.lhsBatch by decide), dif_pos (show (0 : Fin Cert.ReferenceIdeal.S50000x128.rank) ∈ Cert.ReferenceIdeal.dot_S50000x128_S128x64_S50000x64_1_0_0_1_n_n.lhsNonContracting by decide)]
  rfl
theorem all64_lhs_mid (i : Cert.ReferenceIdeal.S50000x64.Idx) (q : Cert.ReferenceIdeal.dot_S50000x128_S128x64_S50000x64_1_0_0_1_n_n.contr.Idx) : (Cert.ReferenceIdeal.dot_S50000x128_S128x64_S50000x64_1_0_0_1_n_n.lhsIdx i q 1).val = (q ⟨0, by decide⟩).val :=
  Cert.ReferenceIdeal.dot_S50000x128_S128x64_S50000x64_1_0_0_1_n_n.lhsIdx_val_of_single rfl i q
theorem all64_rhs_mid (i : Cert.ReferenceIdeal.S50000x64.Idx) (q : Cert.ReferenceIdeal.dot_S50000x128_S128x64_S50000x64_1_0_0_1_n_n.contr.Idx) : (Cert.ReferenceIdeal.dot_S50000x128_S128x64_S50000x64_1_0_0_1_n_n.rhsIdx i q 0).val = (q ⟨0, by decide⟩).val :=
  Cert.ReferenceIdeal.dot_S50000x128_S128x64_S50000x64_1_0_0_1_n_n.rhsIdx_val_of_single rfl i q
theorem all64_rhs_col (i : Cert.ReferenceIdeal.S50000x64.Idx) (q : Cert.ReferenceIdeal.dot_S50000x128_S128x64_S50000x64_1_0_0_1_n_n.contr.Idx) : (Cert.ReferenceIdeal.dot_S50000x128_S128x64_S50000x64_1_0_0_1_n_n.rhsIdx i q 1).val = (i 1).val := by
  unfold DotDims.rhsIdx
  rw [dif_neg (show ¬(1 : Fin Cert.ReferenceIdeal.S128x64.rank) ∈ Cert.ReferenceIdeal.dot_S50000x128_S128x64_S50000x64_1_0_0_1_n_n.rhsBatch by decide), dif_pos (show (1 : Fin Cert.ReferenceIdeal.S128x64.rank) ∈ Cert.ReferenceIdeal.dot_S50000x128_S128x64_S50000x64_1_0_0_1_n_n.rhsNonContracting by decide)]
  rfl
/-- The contraction's sum over its one axis, re-indexed by that axis' coordinate: the left factor is read in row `r`, the right factor in column `q`. -/
theorem all64_sum (a : Cert.ReferenceIdeal.S50000x128.Idx → EReal) (b : Cert.ReferenceIdeal.S128x64.Idx → EReal) (r : Fin 50000) (q : Fin 64) :
    (∑ k : Cert.ReferenceIdeal.dot_S50000x128_S128x64_S50000x64_1_0_0_1_n_n.contr.Idx, a (Cert.ReferenceIdeal.dot_S50000x128_S128x64_S50000x64_1_0_0_1_n_n.lhsIdx (ix2 r q) k) * b (Cert.ReferenceIdeal.dot_S50000x128_S128x64_S50000x64_1_0_0_1_n_n.rhsIdx (ix2 r q) k)) = ∑ k : Fin 128, a (ix2 r k) * b (ix2 k q) := by
  rw [← Equiv.sum_comp (contrEquiv1 Cert.ReferenceIdeal.dot_S50000x128_S128x64_S50000x64_1_0_0_1_n_n 128 rfl rfl).symm]
  refine Finset.sum_congr rfl fun k _ => ?_
  have hk := contrEquiv1_symm_val Cert.ReferenceIdeal.dot_S50000x128_S128x64_S50000x64_1_0_0_1_n_n 128 rfl rfl k
  have el : Cert.ReferenceIdeal.dot_S50000x128_S128x64_S50000x64_1_0_0_1_n_n.lhsIdx (ix2 r q) ((contrEquiv1 Cert.ReferenceIdeal.dot_S50000x128_S128x64_S50000x64_1_0_0_1_n_n 128 rfl rfl).symm k) = ix2 r k := funext fun a => Fin.ext (by
    match a with
    | ⟨0, _⟩ => exact all64_lhs_row _ _
    | ⟨1, _⟩ => exact (all64_lhs_mid _ _).trans hk)
  have er : Cert.ReferenceIdeal.dot_S50000x128_S128x64_S50000x64_1_0_0_1_n_n.rhsIdx (ix2 r q) ((contrEquiv1 Cert.ReferenceIdeal.dot_S50000x128_S128x64_S50000x64_1_0_0_1_n_n 128 rfl rfl).symm k) = ix2 k q := funext fun a => Fin.ext (by
    match a with
    | ⟨0, _⟩ => exact (all64_rhs_mid _ _).trans hk
    | ⟨1, _⟩ => exact all64_rhs_col _ _)
  rw [el, er]

/-! ## Region 0: the product into 128 columns -/

/-- Entry (p, q) of a block's product. -/
theorem blockProduct128 (x0 : Vec Ideal S5000x128 .f32) (x1 : Vec Ideal S128x128 .f32) (p : Fin 5000) (q : Fin 128) :
    k0_pay1 x0 x1 (ix2 p q) = ∑ k : Fin 128, x0 (ix2 p k) * x1 (ix2 k q) := by
  unfold k0_pay1
  refine (Ideal.matmul_constant_zero_apply dot_S5000x128_S128x128_S5000x128_1_0_0_1_n_n none _ _ (ix2 p q)).trans ?_
  exact blk128_sum _ _ p q

/-- Entry (r, q) of the whole product. -/
theorem wholeProduct128 (a : Cert.ReferenceIdeal.S50000x128.Idx → EReal) (b : Cert.ReferenceIdeal.S128x128.Idx → EReal) (r : Fin 50000) (q : Fin 128) :
    Cert.Gcn.mm128 (F := Ideal) a b (ix2 r q) = ∑ k : Fin 128, a (ix2 r k) * b (ix2 k q) := by
  unfold Cert.Gcn.mm128
  simp only [Host.dotGeneral]
  rw [Ideal.dotGeneral_apply]
  exact all128_sum _ _ r q

section
variable (V : (c : Dev nD) → (b : Ref sig .tc) → Buf (Elt Ideal) ((c : Thread nD τ).loc b))

/-- The three windows' block indices at a grid point: the left factor and the result move down with the point, the right
    factor stays. -/
theorem gridIdx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Block `t` of the left factor is its rows from `5000 · t`. -/
theorem leftBlock0 (c : Dev nD) (t : Fin cfg0.N) (p : Fin 5000) (k : Fin 128) (r : Fin 50000) (hr : r.val = t.val * 5000 + p.val) :
    (iblk0 V c 0 t : Vec Ideal S5000x128 .f32) (ix2 p k) = (V c main_arg0 : S50000x128.Idx → Elt Ideal .f32) (ix2 r k) := by
  obtain ⟨e0, e1, -⟩ := gridIdx0 t
  unfold iblk0
  rw [View.read_apply]
  show V c main_arg0 _ = V c main_arg0 _
  congr 1
  funext a; apply Fin.ext
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- Every point's block of the right factor is the whole of it. -/
theorem rightBlock0 (c : Dev nD) (t : Fin cfg0.N) (k : Fin 128) (q : Fin 128) :
    (iblk0 V c 1 t : Vec Ideal S128x128 .f32) (ix2 k q) = (V c main_arg2 : S128x128.Idx → Elt Ideal .f32) (ix2 k q) := by
  obtain ⟨-, -, e2, e3, -⟩ := gridIdx0 t
  unfold iblk0
  rw [View.read_apply]
  show V c main_arg2 _ = V c main_arg2 _
  congr 1
  funext a; apply Fin.ext
  match a with
  | ⟨0, _⟩ => show win0_1.index t (0 : Fin 2) * 128 + 1 * k.val = k.val; rw [e2]; omega
  | ⟨1, _⟩ => show win0_1.index t (1 : Fin 2) * 128 + 1 * q.val = q.val; rw [e3]; omega

/-- Entry (p, q) of what point `t` computes is entry (5000 · t + p, q) of the whole product. -/
theorem pointEntry0 (c : Dev nD) (t : Fin cfg0.N) (p : Fin 5000) (q : Fin 128) (r : Fin 50000) (hr : r.val = t.val * 5000 + p.val) :
    k0_pay1 (iblk0 V c 0 t) (iblk0 V c 1 t) (ix2 p q) = Cert.Gcn.mm128 (V c main_arg0) (V c main_arg2) (ix2 r q) := by
  refine (blockProduct128 (iblk0 V c 0 t) (iblk0 V c 1 t) p q).trans ?_
  refine Eq.trans ?_ (wholeProduct128 (V c main_arg0) (V c main_arg2) r q).symm
  refine Finset.sum_congr rfl fun k _ => ?_
  rw [leftBlock0 V c t p k r hr, rightBlock0 V c t k q]

/-- What point `t` writes back is block `t` of the whole product. -/
theorem flushed_eq0 (c : Dev nD) (t : Fin cfg0.N) :
    (dat0 V c).flushed 2 t = ((cfg0.win 2).blk t).view.read (Elt Ideal) (Cert.Gcn.mm128 (V c main_arg0) (V c main_arg2)) := by
  show (cfg0.win 2).cut (grid0.coords t) ((dat0 V c).after 2 t) = _
  rw [after0_2]
  unfold out0_2
  rw [View.canon_unit_zero zeroOff]
  simp only [View.ld_unit_zero (S := S5000x128) zeroOff, View.ld_unit_zero (S := S128x128) zeroOff]
  obtain ⟨-, -, -, -, e4, e5⟩ := gridIdx0 t
  have hN : cfg0.N = 10 := N_0
  have ht : t.val < 10 := by have := t.isLt; omega
  funext j
  obtain ⟨p, q, rfl⟩ : ∃ (p : Fin 5000) (q : Fin 128), j = ix2 p q := ⟨j 0, j 1, eq_ix2 (n0 := 5000) (n1 := 128) j⟩
  have hemb : ((cfg0.win 2).blk t).view.emb (ix2 p q) = ix2 (⟨t.val * 5000 + p.val, by have := p.isLt; omega⟩ : Fin 50000) q := by
    funext a; apply Fin.ext
    match a with
    | ⟨0, _⟩ => show win0_2.index t (0 : Fin 2) * 5000 + 1 * p.val = t.val * 5000 + p.val; rw [e4]; omega
    | ⟨1, _⟩ => show win0_2.index t (1 : Fin 2) * 128 + 1 * q.val = q.val; rw [e5]; omega
  show k0_pay1 (iblk0 V c 0 t) (iblk0 V c 1 t) (ix2 p q) = Cert.Gcn.mm128 (V c main_arg0) (V c main_arg2) (((cfg0.win 2).blk t).view.emb (ix2 p q))
  rw [hemb]
  exact pointEntry0 V c t p q _ rfl

/-- An index of the result array lies in point `t`'s block iff each coordinate lies in the block's range. -/
theorem mem_rows0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v29).slice (win0_2.rect t)).set ↔ _
  rw [View.set_slice_whole, Rect.mem_set_unit]
  exact Iff.rfl

/-- The result array after the region: the whole product. -/
theorem final0 (c : Dev nD) : (dat0 V c).arrAt 2 cfg0.N = Cert.Gcn.mm128 (V c main_arg0) (V c main_arg2) :=
  (dat0 V c).arrAt_eq_of_cover 2 _ (fun t _ => flushed_eq0 V c t) fun i => by
    have hi0 : (i 0).val < 50000 := (i 0).isLt
    have hi1 : (i 1).val < 128 := (i 1).isLt
    have hN : cfg0.N = 10 := N_0
    obtain ⟨-, -, -, -, e4, e5⟩ := gridIdx0 (⟨(i 0).val / 5000, by rw [hN]; omega⟩ : Fin cfg0.N)
    refine ⟨⟨(i 0).val / 5000, by rw [hN]; omega⟩, flush0_2 _, ?_⟩
    rw [mem_rows0]
    intro a
    match a with
    | ⟨0, _⟩ =>
      show win0_2.index _ (0 : Fin 2) * 5000 ≤ (i 0).val ∧ (i 0).val < win0_2.index _ (0 : Fin 2) * 5000 + 5000
      rw [e4]; show (i 0).val / 5000 * 5000 ≤ (i 0).val ∧ (i 0).val < (i 0).val / 5000 * 5000 + 5000; omega
    | ⟨1, _⟩ =>
      show win0_2.index _ (1 : Fin 2) * 128 ≤ (i 1).val ∧ (i 1).val < win0_2.index _ (1 : Fin 2) * 128 + 128
      rw [e5]; omega

end

/-! ## Region 2: the product into 64 columns -/

/-- Entry (p, q) of a block's product. -/
theorem blockProduct64 (x0 : Vec Ideal S5000x128 .f32) (x1 : Vec Ideal S128x64 .f32) (p : Fin 5000) (q : Fin 64) :
    k2_pay1 x0 x1 (ix2 p q) = ∑ k : Fin 128, x0 (ix2 p k) * x1 (ix2 k q) := by
  unfold k2_pay1
  rw [shapeCast_self]
  refine (Ideal.matmul_constant_zero_apply dot_S5000x128_S128x64_S5000x64_1_0_0_1_n_n none _ _ (ix2 p q)).trans ?_
  exact blk64_sum _ _ p q

/-- Entry (r, q) of the whole product. -/
theorem wholeProduct64 (a : Cert.ReferenceIdeal.S50000x128.Idx → EReal) (b : Cert.ReferenceIdeal.S128x64.Idx → EReal) (r : Fin 50000) (q : Fin 64) :
    Cert.Gcn.mm64 (F := Ideal) a b (ix2 r q) = ∑ k : Fin 128, a (ix2 r k) * b (ix2 k q) := by
  unfold Cert.Gcn.mm64
  simp only [Host.dotGeneral]
  rw [Ideal.dotGeneral_apply]
  exact all64_sum _ _ r q

section
variable (V : (c : Dev nD) → (b : Ref sig .tc) → Buf (Elt Ideal) ((c : Thread nD τ).loc b))

/-- The three windows' block indices at a grid point: the left factor and the result move down with the point, the right
    factor stays. -/
theorem gridIdx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Block `t` of the left factor is its rows from `5000 · t`. -/
theorem leftBlock2 (c : Dev nD) (t : Fin cfg2.N) (p : Fin 5000) (k : Fin 128) (r : Fin 50000) (hr : r.val = t.val * 5000 + p.val) :
    (iblk2 V c 0 t : Vec Ideal S5000x128 .f32) (ix2 p k) = (V c main_v43 : S50000x128.Idx → Elt Ideal .f32) (ix2 r k) := by
  obtain ⟨e0, e1, -⟩ := gridIdx2 t
  unfold iblk2
  rw [View.read_apply]
  show V c main_v43 _ = V c main_v43 _
  congr 1
  funext a; apply Fin.ext
  match a with
  | ⟨0, _⟩ => show win2_0.index t (0 : Fin 2) * 5000 + 1 * p.val = r.val; rw [e0, hr]; omega
  | ⟨1, _⟩ => show win2_0.index t (1 : Fin 2) * 128 + 1 * k.val = k.val; rw [e1]; omega

/-- Every point's block of the right factor is the whole of it. -/
theorem rightBlock2 (c : Dev nD) (t : Fin cfg2.N) (k : Fin 128) (q : Fin 64) :
    (iblk2 V c 1 t : Vec Ideal S128x64 .f32) (ix2 k q) = (V c main_arg4 : S128x64.Idx → Elt Ideal .f32) (ix2 k q) := by
  obtain ⟨-, -, e2, e3, -⟩ := gridIdx2 t
  unfold iblk2
  rw [View.read_apply]
  show V c main_arg4 _ = V c main_arg4 _
  congr 1
  funext a; apply Fin.ext
  match a with
  | ⟨0, _⟩ => show win2_1.index t (0 : Fin 2) * 128 + 1 * k.val = k.val; rw [e2]; omega
  | ⟨1, _⟩ => show win2_1.index t (1 : Fin 2) * 64 + 1 * q.val = q.val; rw [e3]; omega

/-- Entry (p, q) of what point `t` computes is entry (5000 · t + p, q) of the whole product. -/
theorem pointEntry2 (c : Dev nD) (t : Fin cfg2.N) (p : Fin 5000) (q : Fin 64) (r : Fin 50000) (hr : r.val = t.val * 5000 + p.val) :
    k2_pay1 (iblk2 V c 0 t) (iblk2 V c 1 t) (ix2 p q) = Cert.Gcn.mm64 (V c main_v43) (V c main_arg4) (ix2 r q) := by
  refine (blockProduct64 (iblk2 V c 0 t) (iblk2 V c 1 t) p q).trans ?_
  refine Eq.trans ?_ (wholeProduct64 (V c main_v43) (V c main_arg4) r q).symm
  refine Finset.sum_congr rfl fun k _ => ?_
  rw [leftBlock2 V c t p k r hr, rightBlock2 V c t k q]

/-- What point `t` writes back is block `t` of the whole product. -/
theorem flushed_eq2 (c : Dev nD) (t : Fin cfg2.N) :
    (dat2 V c).flushed 2 t = ((cfg2.win 2).blk t).view.read (Elt Ideal) (Cert.Gcn.mm64 (V c main_v43) (V c main_arg4)) := by
  show (cfg2.win 2).cut (grid2.coords t) ((dat2 V c).after 2 t) = _
  rw [after2_2]
  unfold out2_2
  rw [View.canon_unit_zero zeroOff]
  simp only [View.ld_unit_zero (S := S5000x128) zeroOff, View.ld_unit_zero (S := S128x64) zeroOff]
  obtain ⟨-, -, -, -, e4, e5⟩ := gridIdx2 t
  have hN : cfg2.N = 10 := N_2
  have ht : t.val < 10 := by have := t.isLt; omega
  funext j
  obtain ⟨p, q, rfl⟩ : ∃ (p : Fin 5000) (q : Fin 64), j = ix2 p q := ⟨j 0, j 1, eq_ix2 (n0 := 5000) (n1 := 64) j⟩
  have hemb : ((cfg2.win 2).blk t).view.emb (ix2 p q) = ix2 (⟨t.val * 5000 + p.val, by have := p.isLt; omega⟩ : Fin 50000) q := by
    funext a; apply Fin.ext
    match a with
    | ⟨0, _⟩ => show win2_2.index t (0 : Fin 2) * 5000 + 1 * p.val = t.val * 5000 + p.val; rw [e4]; omega
    | ⟨1, _⟩ => show win2_2.index t (1 : Fin 2) * 64 + 1 * q.val = q.val; rw [e5]; omega
  show k2_pay1 (iblk2 V c 0 t) (iblk2 V c 1 t) (ix2 p q) = Cert.Gcn.mm64 (V c main_v43) (V c main_arg4) (((cfg2.win 2).blk t).view.emb (ix2 p q))
  rw [hemb]
  exact pointEntry2 V c t p q _ rfl

/-- An index of the result array lies in point `t`'s block iff each coordinate lies in the block's range. -/
theorem mem_rows2 (t : Fin cfg2.N) (i : S50000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v44).slice (win2_2.rect t)).set ↔ _
  rw [View.set_slice_whole, Rect.mem_set_unit]
  exact Iff.rfl

/-- The result array after the region: the whole product. -/
theorem final2 (c : Dev nD) : (dat2 V c).arrAt 2 cfg2.N = Cert.Gcn.mm64 (V c main_v43) (V c main_arg4) :=
  (dat2 V c).arrAt_eq_of_cover 2 _ (fun t _ => flushed_eq2 V c t) fun i => by
    have hi0 : (i 0).val < 50000 := (i 0).isLt
    have hi1 : (i 1).val < 64 := (i 1).isLt
    have hN : cfg2.N = 10 := N_2
    obtain ⟨-, -, -, -, e4, e5⟩ := gridIdx2 (⟨(i 0).val / 5000, by rw [hN]; omega⟩ : Fin cfg2.N)
    refine ⟨⟨(i 0).val / 5000, by rw [hN]; omega⟩, flush2_2 _, ?_⟩
    rw [mem_rows2]
    intro a
    match a with
    | ⟨0, _⟩ =>
      show win2_2.index _ (0 : Fin 2) * 5000 ≤ (i 0).val ∧ (i 0).val < win2_2.index _ (0 : Fin 2) * 5000 + 5000
      rw [e4]; show (i 0).val / 5000 * 5000 ≤ (i 0).val ∧ (i 0).val < (i 0).val / 5000 * 5000 + 5000; omega
    | ⟨1, _⟩ =>
      show win2_2.index _ (1 : Fin 2) * 64 ≤ (i 1).val ∧ (i 1).val < win2_2.index _ (1 : Fin 2) * 64 + 64
      rw [e5]; omega

end

end Cert.KernelIdeal.Hand

end
-- ==== Proof.FinalizeBlocks.lean ====
/-
  The two pointwise regions, from blocks to whole arrays.

  Both regions run over a grid of 10 points.  Point `t` handles rows `5000 t … 5000 t + 4999` of a 50000-row
  array of width `d` (`d = 128` in the first, `d = 64` in the second).  From the blocks

      agg, sup : [5000, d] (rows 5000 t …),   col : [5000, 1] (the same rows of a one-column array),
      row : [1, d] (the whole one-row array, at every point)

  the body writes the block

      out[p, q] = max (agg[p, q] + sup[p, q] · col[p, 0] + row[0, q]) 0.

  Entry `(p, q)` of block `t` is entry `(5000 t + p, q)` of the array, and the column entry `col[p, 0]` is entry
  `(5000 t + p, 0)` of the column array, so the block written at point `t` is block `t` of the whole-array
  function `relu ((agg + sup · d2) + b)` of the specification.  The 10 blocks are disjoint row ranges whose union
  is all 50000 rows (row `r` lies in block `r / 5000`), so the output array ends holding that function.
-/
import proofs.«181864_j14035953123780_1_alg».proof.Proof.Gen.KernelIdeal.Frame
import proofs.«181864_j14035953123780_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Hand

open Idealize.ShloMosaic Idealize.ShloMosaic.TcCoe Idealize.SL.Sem
open Idealize.ShloMosaic.Pipeline (Dat)
open Idealize.ShloMosaic.ValueIdx
open Cert.KernelIdeal Cert.KernelIdeal.Gen

variable {F : FTy → Type} [FloatOps F]

/-! ## Layout facts shared by both widths -/

/-- The body reads and writes every staging buffer from its corner: the offset vector `(0, 0)` is the zero map. -/
theorem zero_offsets : (![0, 0] : Fin 2 → Nat) = fun _ => 0 := funext fun a => by fin_cases a <;> rfl

/-- A column `[a, 1]` spread over `[a, b]` reads, at `(p, c)`, the column's entry in row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## Width 128 -/

/-- Which block each window holds at grid point `t`: the four row-blocked windows (the two `[5000, 128]` inputs, the
    `[5000, 1]` column and the output) hold block `(t, 0)`; the `[1, 128]` row window holds block `(0, 0)` throughout. -/
theorem blockIndex128 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The block the body computes, entry by entry: `out[p, q] = max (x0[p, q] + x1[p, q] · x2[p, 0] + x3[0, q]) 0`.
    The casts to the same shape are identities; the column is read at its row, the row at its column. -/
theorem blockValue128_apply (x0 x1 : Vec F S5000x128 .f32) (x2 : Vec F S5000x1 .f32) (x3 : Vec F S1x128 .f32)
    (p : Fin 5000) (q : Fin 128) :
    k1_pay1 x0 x1 x2 x3 (ix2 p q)
      = FloatOps.maximumf (FloatOps.addf (FloatOps.addf (x0 (ix2 p q)) (FloatOps.mulf (x1 (ix2 p q)) (x2 (ix2 p (0 : Fin 1)))))
          (x3 (ix2 (0 : Fin 1) q))) (FloatOps.ofBits .f32 0x00000000#32) := by
  unfold k1_pay1
  simp only [shapeCast_self]
  show FloatOps.maximumf (FloatOps.addf (FloatOps.addf (x0 (ix2 p q)) (FloatOps.mulf (x1 (ix2 p q))
      (broadcastTo S5000x128 x2 broadcasts_S5000x1_S5000x128 (ix2 p q))))
      (broadcastTo S5000x128 x3 broadcasts_S1x128_S5000x128 (ix2 p q))) (FloatOps.ofBits .f32 0x00000000#32) = _
  rw [broadcastTo_a1_ab_apply, broadcastTo_1b_ab_apply]

/-- The whole-array function of the specification, entry by entry:
    `fin128 agg sup d2 b [r, q] = max (agg[r, q] + sup[r, q] · d2[r, 0] + b[0, q]) 0`.  The column `d2` spread along
    the rows' entries keeps the row coordinate, the row `b` spread down the rows keeps the column coordinate, and the
    constant is the same everywhere. -/
theorem fin128_apply (agg sup : (⟨Cert.ReferenceIdeal.S50000x128, .f32⟩ : BufTy).Contents (Elt F))
    (d2 : (⟨Cert.ReferenceIdeal.S50000x1, .f32⟩ : BufTy).Contents (Elt F))
    (b : (⟨Cert.ReferenceIdeal.S1x128, .f32⟩ : BufTy).Contents (Elt F)) (r : Fin 50000) (q : Fin 128) :
    Cert.Gcn.fin128 agg sup d2 b (ix2 r q)
      = FloatOps.maximumf (FloatOps.addf (FloatOps.addf (agg (ix2 r q)) (FloatOps.mulf (sup (ix2 r q)) (d2 (ix2 r (0 : Fin 1)))))
          (b (ix2 (0 : Fin 1) q))) (FloatOps.ofBits .f32 0x00000000#32) := by
  unfold Cert.Gcn.fin128
  have e1 : broadcastInDim Cert.ReferenceIdeal.S50000x128 ![0, 1] Cert.ReferenceIdeal.Gen.bcast_S50000x1_S50000x128_0_1 d2 (ix2 r q)
      = d2 (ix2 r (0 : Fin 1)) :=
    broadcastInDim_apply _ Cert.ReferenceIdeal.Gen.bcast_S50000x1_S50000x128_0_1 d2 (ix2 r q) (ix2 r (0 : Fin 1)) (fun a => match a with
      | ⟨0, _⟩ => by show r.val = if (50000 : Nat) = 1 then 0 else r.val; rw [if_neg (by decide)]
      | ⟨1, _⟩ => by show 0 = if (1 : Nat) = 1 then 0 else q.val; rw [if_pos rfl])
  have e2 : broadcastInDim Cert.ReferenceIdeal.S50000x128 ![0, 1] Cert.ReferenceIdeal.Gen.bcast_S1x128_S50000x128_0_1 b (ix2 r q)
      = b (ix2 (0 : Fin 1) q) :=
    broadcastInDim_apply _ Cert.ReferenceIdeal.Gen.bcast_S1x128_S50000x128_0_1 b (ix2 r q) (ix2 (0 : Fin 1) q) (fun a => match a with
      | ⟨0, _⟩ => by show 0 = if (1 : Nat) = 1 then 0 else r.val; rw [if_pos rfl]
      | ⟨1, _⟩ => by show q.val = if (128 : Nat) = 1 then 0 else q.val; rw [if_neg (by decide)])
  show FloatOps.maximumf (FloatOps.addf (FloatOps.addf (agg (ix2 r q)) (FloatOps.mulf (sup (ix2 r q))
      (broadcastInDim Cert.ReferenceIdeal.S50000x128 ![0, 1] Cert.ReferenceIdeal.Gen.bcast_S50000x1_S50000x128_0_1 d2 (ix2 r q))))
      (broadcastInDim Cert.ReferenceIdeal.S50000x128 ![0, 1] Cert.ReferenceIdeal.Gen.bcast_S1x128_S50000x128_0_1 b (ix2 r q)))
      (FloatOps.ofBits .f32 0x00000000#32) = _
  rw [e1, e2]

section Width128
variable (V : (c : Dev nD) → (b : Ref sig .tc) → Buf (Elt F) ((c : Thread nD τ).loc b))

/-- What point `t` writes back is block `t` of `fin128` of the four input arrays as the region finds them.
    Entry `(p, q)` of every row-blocked window's block at `t` is entry `(5000 t + p, q)` of its array (a block's
    coordinate in the array is block index × block extent + the coordinate inside the block); the column's entry
    `(p, 0)` is `(5000 t + p, 0)`; the row window's entry `(0, q)` is `(0, q)`.  So the body's entry `(p, q)` depends on
    exactly the entries the whole-array function reads at `(5000 t + p, q)`. -/
theorem writeBack128 (c : Dev nD) (t : Fin cfg1.N) :
    (dat1 V c).flushed 4 t = ((cfg1.win 4).blk t).view.read (Elt F)
      (Cert.Gcn.fin128 (V c main_v41) (V c main_v29) (V c main_v12) (V c main_v42)) := by
  show (cfg1.win 4).cut (grid1.coords t) ((dat1 V c).after 4 t) = _
  rw [after1_4]
  unfold out1_4
  rw [View.canon_unit_zero zero_offsets]
  simp only [View.ld_unit_zero (S := S5000x128) zero_offsets, View.ld_unit_zero (S := S5000x1) zero_offsets,
    View.ld_unit_zero (S := S1x128) zero_offsets]
  have hN : cfg1.N = 10 := N_1
  have ht : t.val < 10 := by have := t.isLt; omega
  obtain ⟨e00, e01, e10, e11, e20, e21, e30, e31, e40, e41⟩ := blockIndex128 t
  funext j
  obtain ⟨p, q, rfl⟩ : ∃ (p : Fin 5000) (q : Fin 128), j = ix2 p q := ⟨j 0, j 1, eq_ix2 j⟩
  have hp : p.val < 5000 := p.isLt
  have hr : t.val * 5000 + p.val < 50000 := by omega
  -- the four input blocks, read where the output's entry lies in the arrays
  have b0 : iblk1 V c 0 t (ix2 p q) = V c main_v41 (ix2 (⟨t.val * 5000 + p.val, hr⟩ : Fin 50000) q) := by
    show V c main_v41 (((cfg1.win 0).blk t).view.emb (ix2 p q)) = _
    refine congrArg (V c main_v41) (funext fun a => Fin.ext ?_)
    match a with
    | ⟨0, _⟩ => show win1_0.index t (0 : Fin 2) * 5000 + 1 * p.val = t.val * 5000 + p.val; omega
    | ⟨1, _⟩ => show win1_0.index t (1 : Fin 2) * 128 + 1 * q.val = q.val; omega
  have b1 : iblk1 V c 1 t (ix2 p q) = V c main_v29 (ix2 (⟨t.val * 5000 + p.val, hr⟩ : Fin 50000) q) := by
    show V c main_v29 (((cfg1.win 1).blk t).view.emb (ix2 p q)) = _
    refine congrArg (V c main_v29) (funext fun a => Fin.ext ?_)
    match a with
    | ⟨0, _⟩ => show win1_1.index t (0 : Fin 2) * 5000 + 1 * p.val = t.val * 5000 + p.val; omega
    | ⟨1, _⟩ => show win1_1.index t (1 : Fin 2) * 128 + 1 * q.val = q.val; omega
  have b2 : iblk1 V c 2 t (ix2 p (0 : Fin 1)) = V c main_v12 (ix2 (⟨t.val * 5000 + p.val, hr⟩ : Fin 50000) (0 : Fin 1)) := by
    show V c main_v12 (((cfg1.win 2).blk t).view.emb (ix2 p (0 : Fin 1))) = _
    refine congrArg (V c main_v12) (funext fun a => Fin.ext ?_)
    match a with
    | ⟨0, _⟩ => show win1_2.index t (0 : Fin 2) * 5000 + 1 * p.val = t.val * 5000 + p.val; omega
    | ⟨1, _⟩ => show win1_2.index t (1 : Fin 2) * 1 + 1 * 0 = 0; omega
  have b3 : iblk1 V c 3 t (ix2 (0 : Fin 1) q) = V c main_v42 (ix2 (0 : Fin 1) q) := by
    show V c main_v42 (((cfg1.win 3).blk t).view.emb (ix2 (0 : Fin 1) q)) = _
    refine congrArg (V c main_v42) (funext fun a => Fin.ext ?_)
    match a with
    | ⟨0, _⟩ => show win1_3.index t (0 : Fin 2) * 1 + 1 * 0 = 0; omega
    | ⟨1, _⟩ => show win1_3.index t (1 : Fin 2) * 128 + 1 * q.val = q.val; omega
  -- the output block's entry in the output array
  have b4 : ((cfg1.win 4).blk t).view.emb (ix2 p q) = ix2 (⟨t.val * 5000 + p.val, hr⟩ : Fin 50000) q := by
    funext a; apply Fin.ext
    match a with
    | ⟨0, _⟩ => show win1_4.index t (0 : Fin 2) * 5000 + 1 * p.val = t.val * 5000 + p.val; omega
    | ⟨1, _⟩ => show win1_4.index t (1 : Fin 2) * 128 + 1 * q.val = q.val; omega
  refine (blockValue128_apply (iblk1 V c 0 t) (iblk1 V c 1 t) (iblk1 V c 2 t) (iblk1 V c 3 t) p q).trans ?_
  refine Eq.trans ?_ ((fin128_apply (V c main_v41) (V c main_v29) (V c main_v12) (V c main_v42) ⟨t.val * 5000 + p.val, hr⟩ q).symm.trans
    (congrArg (Cert.Gcn.fin128 (V c main_v41) (V c main_v29) (V c main_v12) (V c main_v42)) b4.symm))
  rw [b0, b1, b2, b3]

/-- An entry of the output array is in point `t`'s block iff each coordinate is in the block's range on its axis. -/
theorem mem_outBlock128 (t : Fin cfg1.N) (i : S50000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v43).slice (win1_4.rect t)).set ↔ _
  rw [View.set_slice_whole, Rect.mem_set_unit]
  exact Iff.rfl

/-- Every entry `(r, q)` of the output array is written: it lies in the block of point `r / 5000`, and every point
    writes its block back. -/
theorem rows_covered128 (i : S50000x128.Idx) :
    ∃ t : Fin cfg1.N, (cfg1.win 4).flush t = true ∧ i ∈ ((cfg1.win 4).blk t).view.set := by
  have hN : cfg1.N = 10 := N_1
  have hi0 : (i 0).val < 50000 := (i 0).isLt
  have hi1 : (i 1).val < 128 := (i 1).isLt
  have hlt : (i 0).val / 5000 < cfg1.N := by omega
  obtain ⟨t, hv⟩ : ∃ t : Fin cfg1.N, t.val = (i 0).val / 5000 := ⟨⟨(i 0).val / 5000, hlt⟩, rfl⟩
  obtain ⟨-, -, -, -, -, -, -, -, e40, e41⟩ := blockIndex128 t
  refine ⟨t, flush1_4 t, ?_⟩
  rw [mem_outBlock128]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- The output array after the region: `relu ((agg + sup · d2) + b)` of the input arrays as the region finds them. -/
theorem final1 (c : Dev nD) : (dat1 V c).arrAt 4 cfg1.N
    = Cert.Gcn.fin128 (V c main_v41) (V c main_v29) (V c main_v12) (V c main_v42) :=
  (dat1 V c).arrAt_eq_of_cover 4 _ (fun t _ => writeBack128 V c t) rows_covered128

end Width128

/-! ## Width 64 -/

/-- Which block each window holds at grid point `t`: the four row-blocked windows (the two `[5000, 64]` inputs, the
    `[5000, 1]` column and the output) hold block `(t, 0)`; the `[1, 64]` row window holds block `(0, 0)` throughout. -/
theorem blockIndex64 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- The block the body computes, entry by entry: `out[p, q] = max (x0[p, q] + x1[p, q] · x2[p, 0] + x3[0, q]) 0`.
    The casts to the same shape are identities; the column is read at its row, the row at its column. -/
theorem blockValue64_apply (x0 x1 : Vec F S5000x64 .f32) (x2 : Vec F S5000x1 .f32) (x3 : Vec F S1x64 .f32)
    (p : Fin 5000) (q : Fin 64) :
    k3_pay1 x0 x1 x2 x3 (ix2 p q)
      = FloatOps.maximumf (FloatOps.addf (FloatOps.addf (x0 (ix2 p q)) (FloatOps.mulf (x1 (ix2 p q)) (x2 (ix2 p (0 : Fin 1)))))
          (x3 (ix2 (0 : Fin 1) q))) (FloatOps.ofBits .f32 0x00000000#32) := by
  unfold k3_pay1
  simp only [shapeCast_self]
  show FloatOps.maximumf (FloatOps.addf (FloatOps.addf (x0 (ix2 p q)) (FloatOps.mulf (x1 (ix2 p q))
      (broadcastTo S5000x64 x2 broadcasts_S5000x1_S5000x64 (ix2 p q))))
      (broadcastTo S5000x64 x3 broadcasts_S1x64_S5000x64 (ix2 p q))) (FloatOps.ofBits .f32 0x00000000#32) = _
  rw [broadcastTo_a1_ab_apply, broadcastTo_1b_ab_apply]

/-- The whole-array function of the specification, entry by entry:
    `fin64 agg sup d2 b [r, q] = max (agg[r, q] + sup[r, q] · d2[r, 0] + b[0, q]) 0`.  The column `d2` spread along
    the rows' entries keeps the row coordinate, the row `b` spread down the rows keeps the column coordinate, and the
    constant is the same everywhere. -/
theorem fin64_apply (agg sup : (⟨Cert.ReferenceIdeal.S50000x64, .f32⟩ : BufTy).Contents (Elt F))
    (d2 : (⟨Cert.ReferenceIdeal.S50000x1, .f32⟩ : BufTy).Contents (Elt F))
    (b : (⟨Cert.ReferenceIdeal.S1x64, .f32⟩ : BufTy).Contents (Elt F)) (r : Fin 50000) (q : Fin 64) :
    Cert.Gcn.fin64 agg sup d2 b (ix2 r q)
      = FloatOps.maximumf (FloatOps.addf (FloatOps.addf (agg (ix2 r q)) (FloatOps.mulf (sup (ix2 r q)) (d2 (ix2 r (0 : Fin 1)))))
          (b (ix2 (0 : Fin 1) q))) (FloatOps.ofBits .f32 0x00000000#32) := by
  unfold Cert.Gcn.fin64
  have e1 : broadcastInDim Cert.ReferenceIdeal.S50000x64 ![0, 1] Cert.ReferenceIdeal.Gen.bcast_S50000x1_S50000x64_0_1 d2 (ix2 r q)
      = d2 (ix2 r (0 : Fin 1)) :=
    broadcastInDim_apply _ Cert.ReferenceIdeal.Gen.bcast_S50000x1_S50000x64_0_1 d2 (ix2 r q) (ix2 r (0 : Fin 1)) (fun a => match a with
      | ⟨0, _⟩ => by show r.val = if (50000 : Nat) = 1 then 0 else r.val; rw [if_neg (by decide)]
      | ⟨1, _⟩ => by show 0 = if (1 : Nat) = 1 then 0 else q.val; rw [if_pos rfl])
  have e2 : broadcastInDim Cert.ReferenceIdeal.S50000x64 ![0, 1] Cert.ReferenceIdeal.Gen.bcast_S1x64_S50000x64_0_1 b (ix2 r q)
      = b (ix2 (0 : Fin 1) q) :=
    broadcastInDim_apply _ Cert.ReferenceIdeal.Gen.bcast_S1x64_S50000x64_0_1 b (ix2 r q) (ix2 (0 : Fin 1) q) (fun a => match a with
      | ⟨0, _⟩ => by show 0 = if (1 : Nat) = 1 then 0 else r.val; rw [if_pos rfl]
      | ⟨1, _⟩ => by show q.val = if (64 : Nat) = 1 then 0 else q.val; rw [if_neg (by decide)])
  show FloatOps.maximumf (FloatOps.addf (FloatOps.addf (agg (ix2 r q)) (FloatOps.mulf (sup (ix2 r q))
      (broadcastInDim Cert.ReferenceIdeal.S50000x64 ![0, 1] Cert.ReferenceIdeal.Gen.bcast_S50000x1_S50000x64_0_1 d2 (ix2 r q))))
      (broadcastInDim Cert.ReferenceIdeal.S50000x64 ![0, 1] Cert.ReferenceIdeal.Gen.bcast_S1x64_S50000x64_0_1 b (ix2 r q)))
      (FloatOps.ofBits .f32 0x00000000#32) = _
  rw [e1, e2]

section Width64
variable (V : (c : Dev nD) → (b : Ref sig .tc) → Buf (Elt F) ((c : Thread nD τ).loc b))

/-- What point `t` writes back is block `t` of `fin64` of the four input arrays as the region finds them.
    Entry `(p, q)` of every row-blocked window's block at `t` is entry `(5000 t + p, q)` of its array (a block's
    coordinate in the array is block index × block extent + the coordinate inside the block); the column's entry
    `(p, 0)` is `(5000 t + p, 0)`; the row window's entry `(0, q)` is `(0, q)`.  So the body's entry `(p, q)` depends on
    exactly the entries the whole-array function reads at `(5000 t + p, q)`. -/
theorem writeBack64 (c : Dev nD) (t : Fin cfg3.N) :
    (dat3 V c).flushed 4 t = ((cfg3.win 4).blk t).view.read (Elt F)
      (Cert.Gcn.fin64 (V c main_v56) (V c main_v44) (V c main_v12) (V c main_v57)) := by
  show (cfg3.win 4).cut (grid3.coords t) ((dat3 V c).after 4 t) = _
  rw [after3_4]
  unfold out3_4
  rw [View.canon_unit_zero zero_offsets]
  simp only [View.ld_unit_zero (S := S5000x64) zero_offsets, View.ld_unit_zero (S := S5000x1) zero_offsets,
    View.ld_unit_zero (S := S1x64) zero_offsets]
  have hN : cfg3.N = 10 := N_3
  have ht : t.val < 10 := by have := t.isLt; omega
  obtain ⟨e00, e01, e10, e11, e20, e21, e30, e31, e40, e41⟩ := blockIndex64 t
  funext j
  obtain ⟨p, q, rfl⟩ : ∃ (p : Fin 5000) (q : Fin 64), j = ix2 p q := ⟨j 0, j 1, eq_ix2 j⟩
  have hp : p.val < 5000 := p.isLt
  have hr : t.val * 5000 + p.val < 50000 := by omega
  -- the four input blocks, read where the output's entry lies in the arrays
  have b0 : iblk3 V c 0 t (ix2 p q) = V c main_v56 (ix2 (⟨t.val * 5000 + p.val, hr⟩ : Fin 50000) q) := by
    show V c main_v56 (((cfg3.win 0).blk t).view.emb (ix2 p q)) = _
    refine congrArg (V c main_v56) (funext fun a => Fin.ext ?_)
    match a with
    | ⟨0, _⟩ => show win3_0.index t (0 : Fin 2) * 5000 + 1 * p.val = t.val * 5000 + p.val; omega
    | ⟨1, _⟩ => show win3_0.index t (1 : Fin 2) * 64 + 1 * q.val = q.val; omega
  have b1 : iblk3 V c 1 t (ix2 p q) = V c main_v44 (ix2 (⟨t.val * 5000 + p.val, hr⟩ : Fin 50000) q) := by
    show V c main_v44 (((cfg3.win 1).blk t).view.emb (ix2 p q)) = _
    refine congrArg (V c main_v44) (funext fun a => Fin.ext ?_)
    match a with
    | ⟨0, _⟩ => show win3_1.index t (0 : Fin 2) * 5000 + 1 * p.val = t.val * 5000 + p.val; omega
    | ⟨1, _⟩ => show win3_1.index t (1 : Fin 2) * 64 + 1 * q.val = q.val; omega
  have b2 : iblk3 V c 2 t (ix2 p (0 : Fin 1)) = V c main_v12 (ix2 (⟨t.val * 5000 + p.val, hr⟩ : Fin 50000) (0 : Fin 1)) := by
    show V c main_v12 (((cfg3.win 2).blk t).view.emb (ix2 p (0 : Fin 1))) = _
    refine congrArg (V c main_v12) (funext fun a => Fin.ext ?_)
    match a with
    | ⟨0, _⟩ => show win3_2.index t (0 : Fin 2) * 5000 + 1 * p.val = t.val * 5000 + p.val; omega
    | ⟨1, _⟩ => show win3_2.index t (1 : Fin 2) * 1 + 1 * 0 = 0; omega
  have b3 : iblk3 V c 3 t (ix2 (0 : Fin 1) q) = V c main_v57 (ix2 (0 : Fin 1) q) := by
    show V c main_v57 (((cfg3.win 3).blk t).view.emb (ix2 (0 : Fin 1) q)) = _
    refine congrArg (V c main_v57) (funext fun a => Fin.ext ?_)
    match a with
    | ⟨0, _⟩ => show win3_3.index t (0 : Fin 2) * 1 + 1 * 0 = 0; omega
    | ⟨1, _⟩ => show win3_3.index t (1 : Fin 2) * 64 + 1 * q.val = q.val; omega
  -- the output block's entry in the output array
  have b4 : ((cfg3.win 4).blk t).view.emb (ix2 p q) = ix2 (⟨t.val * 5000 + p.val, hr⟩ : Fin 50000) q := by
    funext a; apply Fin.ext
    match a with
    | ⟨0, _⟩ => show win3_4.index t (0 : Fin 2) * 5000 + 1 * p.val = t.val * 5000 + p.val; omega
    | ⟨1, _⟩ => show win3_4.index t (1 : Fin 2) * 64 + 1 * q.val = q.val; omega
  refine (blockValue64_apply (iblk3 V c 0 t) (iblk3 V c 1 t) (iblk3 V c 2 t) (iblk3 V c 3 t) p q).trans ?_
  refine Eq.trans ?_ ((fin64_apply (V c main_v56) (V c main_v44) (V c main_v12) (V c main_v57) ⟨t.val * 5000 + p.val, hr⟩ q).symm.trans
    (congrArg (Cert.Gcn.fin64 (V c main_v56) (V c main_v44) (V c main_v12) (V c main_v57)) b4.symm))
  rw [b0, b1, b2, b3]

/-- An entry of the output array is in point `t`'s block iff each coordinate is in the block's range on its axis. -/
theorem mem_outBlock64 (t : Fin cfg3.N) (i : S50000x64.Idx) :
    i ∈ ((cfg3.win 4).blk t).view.set ↔ ∀ a : Fin 2, win3_4.index t a * S5000x64.size a ≤ (i a).val
      ∧ (i a).val < win3_4.index t a * S5000x64.size a + S5000x64.size a := by
  show i ∈ ((View.whole main_v58).slice (win3_4.rect t)).set ↔ _
  rw [View.set_slice_whole, Rect.mem_set_unit]
  exact Iff.rfl

/-- Every entry `(r, q)` of the output array is written: it lies in the block of point `r / 5000`, and every point
    writes its block back. -/
theorem rows_covered64 (i : S50000x64.Idx) :
    ∃ t : Fin cfg3.N, (cfg3.win 4).flush t = true ∧ i ∈ ((cfg3.win 4).blk t).view.set := by
  have hN : cfg3.N = 10 := N_3
  have hi0 : (i 0).val < 50000 := (i 0).isLt
  have hi1 : (i 1).val < 64 := (i 1).isLt
  have hlt : (i 0).val / 5000 < cfg3.N := by omega
  obtain ⟨t, hv⟩ : ∃ t : Fin cfg3.N, t.val = (i 0).val / 5000 := ⟨⟨(i 0).val / 5000, hlt⟩, rfl⟩
  obtain ⟨-, -, -, -, -, -, -, -, e40, e41⟩ := blockIndex64 t
  refine ⟨t, flush3_4 t, ?_⟩
  rw [mem_outBlock64]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 64 ≤ (i 1).val ∧ (i 1).val < win3_4.index t (1 : Fin 2) * 64 + 64; omega

/-- The output array after the region: `relu ((agg + sup · d2) + b)` of the input arrays as the region finds them. -/
theorem final3 (c : Dev nD) : (dat3 V c).arrAt 4 cfg3.N
    = Cert.Gcn.fin64 (V c main_v56) (V c main_v44) (V c main_v12) (V c main_v57) :=
  (dat3 V c).arrAt_eq_of_cover 4 _ (fun t _ => writeBack64 V c t) rows_covered64

end Width64

end Cert.KernelIdeal.Hand

end
-- ==== Proof.KernelValue.lean ====
/-
  The idealized kernel's result array, as one function of the argument arrays.

  Region by region: the first region leaves the first layer's product `x · W1` (a product taken 5000 rows at a time
  is the whole product); the stretch after it aggregates it over the edges; the second region applies
  `relu ((agg + sup · dinv²) + b1)` block by block, which is the whole-array expression since every operation in it is
  pointwise; the third region multiplies by `W2`; the last stretch aggregates again and the fourth region finishes the
  second layer.  Substituting each boundary's contents into the next gives the two-layer network of `Spec`, each
  bias entering as the row its reshape makes of it.
-/
import proofs.«181864_j14035953123780_1_alg».proof.Proof.Boundaries
import proofs.«181864_j14035953123780_1_alg».proof.Proof.MatmulBlocks
import proofs.«181864_j14035953123780_1_alg».proof.Proof.FinalizeBlocks

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- After the first region: the first layer's product. -/
theorem W2_sup (c : Dev nD) : W2 m ρ c (Proc.devRef .tc main_v29) = Cert.Gcn.mm128 (m ((c : Thread nD τ).loc main_arg0)) (m ((c : Thread nD τ).loc main_arg2)) := by
  refine (W2_arr m ρ c 2).trans ((final0 (V1 m ρ) c).trans ?_)
  show Cert.Gcn.mm128 (W1 m ρ c (Proc.devRef .tc main_arg0)) (W1 m ρ c (Proc.devRef .tc main_arg2)) = _
  rw [W1_arg0, W1_arg2]

/-- After the second region: the first layer's output. -/
theorem W4_hidden (c : Dev nD) : W4 m ρ c (Proc.devRef .tc main_v43) = Cert.Gcn.hidden (m ((c : Thread nD τ).loc main_arg0)) (m ((c : Thread nD τ).loc main_arg1)) (m ((c : Thread nD τ).loc main_arg2)) (shapeCast S1x128 (m ((c : Thread nD τ).loc main_arg3)) shapeCasts_S128_S1x128) := by
  refine (W4_arr m ρ c 4).trans ((final1 (V3 m ρ) c).trans ?_)
  show Cert.Gcn.fin128 (W3 m ρ c (Proc.devRef .tc main_v41)) (W3 m ρ c (Proc.devRef .tc main_v29)) (W3 m ρ c (Proc.devRef .tc main_v12)) (W3 m ρ c (Proc.devRef .tc main_v42)) = _
  rw [W3_agg, W3_sup, W3_self, W3_bias, W2_sup, W2_src, W2_dst, W2_coef, W2_arg3]
  rfl

/-- After the third region: the second layer's product. -/
theorem W5_sup (c : Dev nD) : W5 m ρ c (Proc.devRef .tc main_v44) = Cert.Gcn.mm64 (Cert.Gcn.hidden (m ((c : Thread nD τ).loc main_arg0)) (m ((c : Thread nD τ).loc main_arg1)) (m ((c : Thread nD τ).loc main_arg2)) (shapeCast S1x128 (m ((c : Thread nD τ).loc main_arg3)) shapeCasts_S128_S1x128)) (m ((c : Thread nD τ).loc main_arg4)) := by
  refine (W5_arr m ρ c 2).trans ((final2 (V4 m ρ) c).trans ?_)
  show Cert.Gcn.mm64 (W4 m ρ c (Proc.devRef .tc main_v43)) (W4 m ρ c (Proc.devRef .tc main_arg4)) = _
  rw [W4_hidden, W4_arg4]

/-- After the fourth region: the network's output. -/
theorem W7_out (c : Dev nD) : W7 m ρ c (Proc.devRef .tc main_v58) = Cert.Gcn.out (m ((c : Thread nD τ).loc main_arg0)) (m ((c : Thread nD τ).loc main_arg1)) (m ((c : Thread nD τ).loc main_arg2)) (shapeCast S1x128 (m ((c : Thread nD τ).loc main_arg3)) shapeCasts_S128_S1x128) (m ((c : Thread nD τ).loc main_arg4)) (shapeCast S1x64 (m ((c : Thread nD τ).loc main_arg5)) shapeCasts_S64_S1x64) := by
  refine (W7_arr m ρ c 4).trans ((final3 (V6 m ρ) c).trans ?_)
  show Cert.Gcn.fin64 (W6 m ρ c (Proc.devRef .tc main_v56)) (W6 m ρ c (Proc.devRef .tc main_v44)) (W6 m ρ c (Proc.devRef .tc main_v12)) (W6 m ρ c (Proc.devRef .tc main_v57)) = _
  rw [W6_agg, W6_sup, W6_self, W6_bias, W5_sup, W5_src, W5_dst, W5_coef, W5_arg5]
  rfl

end Cert.KernelIdeal.Hand

end
-- ==== Proof.RefValue.lean ====
/-
  The reference's result, as the run reads it back, is the network of `Spec` applied to the argument arrays, each
  bias spread into a [1, d] row by the reference's own broadcast: the composed term and the network's definition
  are the same operations in the same order, so unfolding the definitions is the whole proof.
-/
import proofs.«181864_j14035953123780_1_alg».proof.Proof.Gen.ReferenceIdeal.Run
import proofs.«181864_j14035953123780_1_alg».proof.Proof.Spec

noncomputable section

namespace Cert.Gcn.Ref

open Idealize.ShloMosaic Idealize.ShloMosaic.TcCoe Idealize.SL.Sem Cert.ReferenceIdeal Cert.ReferenceIdeal.Gen

variable {F : FTy → Type} [FloatOps F]

set_option maxRecDepth 16384 in
theorem result_eq (m : (ℓ : Loc nD τ sig) → Buf (Elt F) ℓ) (c : Dev nD) :
    Cert.ReferenceIdeal.Value.res_main_v86 m c
      = Cert.Gcn.out (m ((c.tc : Thread nD τ).loc main_arg0)) (m ((c.tc : Thread nD τ).loc main_arg1))
          (m ((c.tc : Thread nD τ).loc main_arg2))
          (broadcastInDim S1x128 ![1] bcast_S128_S1x128_1 (m ((c.tc : Thread nD τ).loc main_arg3)))
          (m ((c.tc : Thread nD τ).loc main_arg4))
          (broadcastInDim S1x64 ![1] bcast_S64_S1x64_1 (m ((c.tc : Thread nD τ).loc main_arg5))) := by
  unfold Cert.ReferenceIdeal.Value.res_main_v86 Cert.Gcn.out Cert.Gcn.hidden Cert.Gcn.fin64 Cert.Gcn.fin128 Cert.Gcn.agg64 Cert.Gcn.agg128
    Cert.Gcn.mm64 Cert.Gcn.mm128 Cert.Gcn.edgeCoef Cert.Gcn.selfCol Cert.Gcn.invSqrtDeg Cert.Gcn.idCol Cert.Gcn.wrapIds Cert.Gcn.srcIds Cert.Gcn.dstIds
  rfl

end Cert.Gcn.Ref

end
-- ==== Proof.lean ====
/-
  The certificate's five claims.

  Both idealized programs compute the same two-layer graph convolution (`Spec`): per layer, the features times the
  weights, aggregated over the edges with the coefficient `dinv[src] · dinv[dst]`, plus the self-loop term and the
  bias, then relu.  The kernel program takes the two matrix products 5000 rows at a time and applies the closing
  pointwise expression block by block; over the extended reals neither changes the arrays computed, so its result
  array is the network applied to the argument arrays (`KernelValue`), and so is the reference's (`RefValue`).
  The two differ in one spelling: the kernel reshapes a bias `[d]` into a row `[1, d]`, the reference broadcasts it
  into one; entry (0, j) of either row is `b[j]`.  No step uses an algebraic law that could fail at an infinity, so
  the precondition is not opened.  The frames are the generated ones (the reference's is its run with the result
  dropped); the idealization rewrote nothing, so `preserves` is `True`.
-/
import proofs.«181864_j14035953123780_1_alg».proof.Defs
import proofs.«181864_j14035953123780_1_alg».proof.Proof.Gen.Kernel
import proofs.«181864_j14035953123780_1_alg».proof.Proof.Gen.Kernel.Frame
import proofs.«181864_j14035953123780_1_alg».proof.Proof.Gen.KernelIdeal
import proofs.«181864_j14035953123780_1_alg».proof.Proof.Gen.KernelIdeal.Frame
import proofs.«181864_j14035953123780_1_alg».proof.Proof.Gen.ReferenceIdeal
import proofs.«181864_j14035953123780_1_alg».proof.Proof.Gen.ReferenceIdeal.Run
import proofs.«181864_j14035953123780_1_alg».proof.Proof.Gen.Pre_finite_inputs
import proofs.«181864_j14035953123780_1_alg».proof.Proof.KernelRun
import proofs.«181864_j14035953123780_1_alg».proof.Proof.KernelValue
import proofs.«181864_j14035953123780_1_alg».proof.Proof.RefValue
import Idealize.ShloMosaic.Lib.Pipeline.Value
import Idealize.ShloMosaic.Adequacy
import Idealize.ShloMosaic.Init

set_option maxRecDepth 16384

noncomputable section

namespace Cert.Proof

open Idealize.ShloMosaic Idealize.ShloMosaic.TcCoe Idealize.SL.Sem

/-- A vector `[n]` reshaped into a row `[1, n]` is the vector broadcast into that row: entry (0, j) is entry j. -/
theorem row_eq {α : Type} {n : Nat} (b : (⟨1, ![n]⟩ : Shape).Idx → α) (hn : n ≠ 1)
    (h : (⟨1, ![n]⟩ : Shape).ShapeCasts ⟨2, ![1, n]⟩) (h' : (⟨1, ![n]⟩ : Shape).BroadcastsInDim ⟨2, ![1, n]⟩ ![1]) :
    shapeCast ⟨2, ![1, n]⟩ b h = broadcastInDim ⟨2, ![1, n]⟩ ![1] h' b := by
  funext j
  refine (shapeCast_addUnit_apply ![n] b h j).trans ?_
  refine (broadcastInDim_apply ![1] h' b j (fun a => j a.succ) (fun a => ?_)).symm
  match a with
  | ⟨0, _⟩ => show (j 1).val = if n = 1 then 0 else (j 1).val; rw [if_neg hn]

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the network's output of the (agreeing) argument arrays. -/
theorem algebraic : Cert.algebraic_KernelIdeal_ReferenceIdeal := by
  intro m ρ m' ρ' _ hagree
  refine ⟨fun c => Cert.Gcn.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (shapeCast Cert.KernelIdeal.S1x128 (m ((c.tc : Thread Cert.KernelIdeal.nD Cert.KernelIdeal.τ).loc Cert.KernelIdeal.main_arg3)) Cert.KernelIdeal.Facts₀.shapeCasts_S128_S1x128) (m ((c.tc : Thread Cert.KernelIdeal.nD Cert.KernelIdeal.τ).loc Cert.KernelIdeal.main_arg4))
      (shapeCast Cert.KernelIdeal.S1x64 (m ((c.tc : Thread Cert.KernelIdeal.nD Cert.KernelIdeal.τ).loc Cert.KernelIdeal.main_arg5)) Cert.KernelIdeal.Facts₀.shapeCasts_S64_S1x64), ?_, ?_⟩
  · exact (θ_run Cert.KernelIdeal.defs _ _).mono (fun r h c => ⟨(h c).1.trans (Cert.KernelIdeal.Hand.W7_out m ρ c), (h c).2⟩)
      (Cert.KernelIdeal.Hand.run_result m ρ)
  · refine (θ_run Cert.ReferenceIdeal.defs _ _).mono (fun _ h c => ⟨(h c).1.trans ?_, (h c).2⟩)
      (Cert.ReferenceIdeal.Value.run (F := Ideal) m' ρ')
    rw [Cert.Gcn.Ref.result_eq]
    obtain ⟨h0, h1, h2, h3, h4, h5⟩ := hagree c
    rw [h0, h1, h2, h3, h4, h5]
    have e1 : shapeCast Cert.KernelIdeal.S1x128 (m ((c.tc : Thread Cert.KernelIdeal.nD Cert.KernelIdeal.τ).loc Cert.KernelIdeal.main_arg3)) Cert.KernelIdeal.Facts₀.shapeCasts_S128_S1x128
        = broadcastInDim Cert.ReferenceIdeal.S1x128 ![1] Cert.ReferenceIdeal.Gen.bcast_S128_S1x128_1 (m ((c.tc : Thread Cert.KernelIdeal.nD Cert.KernelIdeal.τ).loc Cert.KernelIdeal.main_arg3)) :=
      row_eq (n := 128) _ (by decide) _ _
    have e2 : shapeCast Cert.KernelIdeal.S1x64 (m ((c.tc : Thread Cert.KernelIdeal.nD Cert.KernelIdeal.τ).loc Cert.KernelIdeal.main_arg5)) Cert.KernelIdeal.Facts₀.shapeCasts_S64_S1x64
        = broadcastInDim Cert.ReferenceIdeal.S1x64 ![1] Cert.ReferenceIdeal.Gen.bcast_S64_S1x64_1 (m ((c.tc : Thread Cert.KernelIdeal.nD Cert.KernelIdeal.τ).loc Cert.KernelIdeal.main_arg5)) :=
      row_eq (n := 64) _ (by decide) _ _
    show Cert.Gcn.out _ _ _ _ _ _ = Cert.Gcn.out _ _ _ _ _ _
    rw [e1, e2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
